-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S3200000 : Shape := ⟨1, ![3200000]⟩
abbrev S64x8 : Shape := ⟨2, ![64, 8]⟩
abbrev S64 : Shape := ⟨1, ![64]⟩
abbrev S3x64x64 : Shape := ⟨3, ![3, 64, 64]⟩
abbrev S3x64 : Shape := ⟨2, ![3, 64]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S64x8 : S_.BroadcastsInDim S64x8 (![] : Fin 0 → Fin S64x8.rank)
  reducesTo_S64x8_S_d0_1 : S64x8.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg9 : FVec F S3x64 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  main_v38

def fn_part1 {F : FTy → Type} [FloatOps F] (main_arg6 : FVec F S3x64x64 .f32) (main_arg7 : FVec F S3x64 .f32) (main_arg8 : FVec F S3x64 .f32) (main_arg9 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_v33

def fn {F : FTy → Type} [FloatOps F] (main_arg0 : FVec F S100000x8 .f32) (main_arg1 : IVec S3200000 32) (main_arg2 : IVec S3200000 32) (main_arg3 : FVec F S64x8 .f32) (main_arg4 : FVec F S64 .f32) (main_arg5 : FVec F S3x64x64 .f32) (main_arg6 : FVec F S3x64x64 .f32) (main_arg7 : FVec F S3x64 .f32) (main_arg8 : FVec F S3x64 .f32) (main_arg9 : FVec F S3x64 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S64x8 .f32 := Host.absf main_arg3
  let main_cst_0 : FVec F S_ .f32 := constant S_ .f32 0x7F800000#32
  let main_v5 : FVec F S64x8 .f32 := broadcastInDim S64x8 ![] bcast_S_S64x8 main_cst_0
  let main_v6 : IVec S64x8 1 := cmpf .olt main_v4 main_v5
  let main_c_1 : IVec S_ 1 := constantI S_ 1 1#1
  let main_v7 : IVec S_ 1 := (fun x v => Host.reduce IntOp.andi x v reducesTo_S64x8_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_v13 main_v16
-- ==== Kernel.lean ====
abbrev S100000x8 : Shape := ⟨2, ![100000, 8]⟩
abbrev S3200000 : Shape := ⟨1, ![3200000]⟩
abbrev S64x8 : Shape := ⟨2, ![64, 8]⟩
abbrev S64 : Shape := ⟨1, ![64]⟩
abbrev S3x64x64 : Shape := ⟨3, ![3, 64, 64]⟩
abbrev S3x64 : Shape := ⟨2, ![3, 64]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x64 : Shape := ⟨2, ![1, 64]⟩
abbrev S100000x64 : Shape := ⟨2, ![100000, 64]⟩
abbrev S5000x8 : Shape := ⟨2, ![5000, 8]⟩
abbrev S5000x64 : Shape := ⟨2, ![5000, 64]⟩
abbrev S8x64 : Shape := ⟨2, ![8, 64]⟩
abbrev S3200000x64 : Shape := ⟨2, ![3200000, 64]⟩
abbrev S1x64x64 : Shape := ⟨3, ![1, 64, 64]⟩
abbrev S64x64 : Shape := ⟨2, ![64, 64]⟩
abbrev S5000 : Shape := ⟨1, ![5000]⟩
abbrev S5000x1 : Shape := ⟨2, ![5000, 1]⟩

abbrev nBuf : Space → Nat
  | .hbm => 119
  | .vmem => 39
  | .smem => 0
  | _ => 0

abbrev bufTy : (tb : Table) → Fin (tcTables nBuf tb) → BufTy
  | .hbm, ⟨0, _⟩ => ⟨S100000x8, .f32⟩
  | .hbm, ⟨1, _⟩ => ⟨S3200000, .i32⟩
  | .hbm, ⟨2, _⟩ => ⟨S3200000, .i32⟩
  | .hbm, ⟨3, _⟩ => ⟨S64x8, .f32⟩
  | .hbm, ⟨4, _⟩ => ⟨S64, .f32⟩
  | .hbm, ⟨5, _⟩ => ⟨S3x64x64, .f32⟩
  | .hbm, ⟨6, _⟩ => ⟨S3x64x64, .f32⟩
  | .hbm, ⟨7, _⟩ => ⟨S3x64, .f32⟩
  | .hbm, ⟨8, _⟩ => ⟨S3x64, .f32⟩
  | .hbm, ⟨9, _⟩ => ⟨S3x64, .f32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S1x64, .f32⟩
  | .hbm, ⟨31, _⟩ => ⟨S100000x64, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x64, .f32⟩
  | .hbm, ⟨41, _⟩ => ⟨S_, .f32⟩
  | .hbm, ⟨42, _⟩ => ⟨S100000x64, .f32⟩
  | .hbm, ⟨43, _⟩ => ⟨S3200000x1, .i32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64x64, .f32⟩
  | .hbm, ⟨48, _⟩ => ⟨S64x64, .f32⟩
  | .hbm, ⟨49, _⟩ => ⟨S1x64x64, .f32⟩
  | .hbm, ⟨50, _⟩ => ⟨S64x64, .f32⟩
  | .hbm, ⟨51, _⟩ => ⟨S1x64, .f32⟩
  | .hbm, ⟨52, _⟩ => ⟨S64, .f32⟩
  | .hbm, ⟨53, _⟩ => ⟨S1x64, .f32⟩
  | .hbm, ⟨54, _⟩ => ⟨S64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S100000x64, .f32⟩
  | .hbm, ⟨61, _⟩ => ⟨S_, .i32⟩
  | .hbm, ⟨62, _⟩ => ⟨S3200000, .i32⟩
  | .hbm, ⟨63, _⟩ => ⟨S3200000, .i1⟩
  | .hbm, ⟨64, _⟩ => ⟨S_, .i32⟩
  | .hbm, ⟨65, _⟩ => ⟨S3200000, .i32⟩
  | .hbm, ⟨66, _⟩ => ⟨S3200000, .i32⟩
  | .hbm, ⟨67, _⟩ => ⟨S3200000, .i32⟩
  | .hbm, ⟨68, _⟩ => ⟨S3200000x1, .i32⟩
  | .hbm, ⟨69, _⟩ => ⟨S3200000x64, .f32⟩
  | .hbm, ⟨70, _⟩ => ⟨S_, .f32⟩
  | .hbm, ⟨71, _⟩ => ⟨S100000x64, .f32⟩
  | .hbm, ⟨72, _⟩ => ⟨S3200000x1, .i32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S1x64x64, .f32⟩
  | .hbm, ⟨77, _⟩ => ⟨S64x64, .f32⟩
  | .hbm, ⟨78, _⟩ => ⟨S1x64x64, .f32⟩
  | .hbm, ⟨79, _⟩ => ⟨S64x64, .f32⟩
  | .hbm, ⟨80, _⟩ => ⟨S1x64, .f32⟩
  | .hbm, ⟨81, _⟩ => ⟨S64, .f32⟩
  | .hbm, ⟨82, _⟩ => ⟨S1x64, .f32⟩
  | .hbm, ⟨83, _⟩ => ⟨S64, .f32⟩
  | .hbm, ⟨84, _⟩ => ⟨S1x64, .f32⟩
  | .hbm, ⟨85, _⟩ => ⟨S64, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S100000x64, .f32⟩
  | .hbm, ⟨90, _⟩ => ⟨S_, .i32⟩
  | .hbm, ⟨91, _⟩ => ⟨S3200000, .i32⟩
  | .hbm, ⟨92, _⟩ => ⟨S3200000, .i1⟩
  | .hbm, ⟨93, _⟩ => ⟨S_, .i32⟩
  | .hbm, ⟨94, _⟩ => ⟨S3200000, .i32⟩
  | .hbm, ⟨95, _⟩ => ⟨S3200000, .i32⟩
  | .hbm, ⟨96, _⟩ => ⟨S3200000, .i32⟩
  | .hbm, ⟨97, _⟩ => ⟨S3200000x1, .i32⟩
  | .hbm, ⟨98, _⟩ => ⟨S3200000x64, .f32⟩
  | .hbm, ⟨99, _⟩ => ⟨S_, .f32⟩
  | .hbm, ⟨100, _⟩ => ⟨S100000x64, .f32⟩
  | .hbm, ⟨101, _⟩ => ⟨S3200000x1, .i32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S1x64x64, .f32⟩
  | .hbm, ⟨106, _⟩ => ⟨S64x64, .f32⟩
  | .hbm, ⟨107, _⟩ => ⟨S1x64x64, .f32⟩
  | .hbm, ⟨108, _⟩ => ⟨S64x64, .f32⟩
  | .hbm, ⟨109, _⟩ => ⟨S1x64, .f32⟩
  | .hbm, ⟨110, _⟩ => ⟨S64, .f32⟩
  | .hbm, ⟨111, _⟩ => ⟨S1x64, .f32⟩
  | .hbm, ⟨112, _⟩ => ⟨S64, .f32⟩
  | .hbm, ⟨113, _⟩ => ⟨S1x64, .f32⟩
  | .hbm, ⟨114, _⟩ => ⟨S64, .f32⟩
  | .hbm, ⟨115, _⟩ => ⟨S1x64, .f32⟩
  | .hbm, ⟨116, _⟩ => ⟨S1x64, .f32⟩
  | .hbm, ⟨117, _⟩ => ⟨S1x64, .f32⟩
  | .hbm, ⟨118, _⟩ => ⟨S100000x64, .f32⟩
  | .local _ .vmem, ⟨0, _⟩ => ⟨S5000x8, .f32⟩
  | .local _ .vmem, ⟨1, _⟩ => ⟨S5000x8, .f32⟩
  | .local _ .vmem, ⟨2, _⟩ => ⟨S64x8, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_10 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  shapeCasts_S64_S1x64 : S64.ShapeCasts S1x64
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S64x8_S64x8_0_0 : ∀ a, (![0, 0] : Fin 2 → Nat) a + S64x8.size a ≤ S64x8.size a
  h_S64x8 : 0 < S64x8.numel
  transposes_S64x8_p1_0_S8x64 : S64x8.Transposes [1, 0] S8x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  reduces_S5000x64_S5000 : S5000x64.Reduces [1] S5000
  shapeCasts_S5000_S5000x1 : S5000.ShapeCasts S5000x1
  broadcasts_S5000x1_S5000x64 : S5000x1.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S100000_S3200000x1_S3200000_n_0_0_1_wf : ScatterDims.WF S100000 S3200000x1 S3200000 [] [0] [0] 1
  dot_S5000x8_S8x64_S5000x64_1_0_0_1_n_n_wf : DotDims.WF S5000x8 S8x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8.size a ≤ S64x8.size a
  hwx0_1 : ∀ i : grid0.Coords, EltTy.bits .f32 = 32 ∨ (Rect.block (s := S64x8) S64x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S100000x64.size a
  hwx3_7 : ∀ i : grid3.Coords, EltTy.bits .f32 = 32 ∨ (Rect.block (s := S100000x64) S5000x64.size (cc3_transform_7 i) (hinb3_7 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v65) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v65) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v89) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v90) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v91) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x8 : Shape := ⟨2, ![100000, 8]⟩
abbrev S3200000 : Shape := ⟨1, ![3200000]⟩
abbrev S64x8 : Shape := ⟨2, ![64, 8]⟩
abbrev S64 : Shape := ⟨1, ![64]⟩
abbrev S3x64x64 : Shape := ⟨3, ![3, 64, 64]⟩
abbrev S3x64 : Shape := ⟨2, ![3, 64]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S8x64 : Shape := ⟨2, ![8, 64]⟩
abbrev S100000x64 : Shape := ⟨2, ![100000, 64]⟩
abbrev S1x64 : Shape := ⟨2, ![1, 64]⟩
abbrev S3200000x64 : Shape := ⟨2, ![3200000, 64]⟩
abbrev S1x64x64 : Shape := ⟨3, ![1, 64, 64]⟩
abbrev S64x64 : Shape := ⟨2, ![64, 64]⟩

abbrev nBuf : Space → Nat
  | .hbm => 236
  | .vmem => 0
  | .smem => 0
  | _ => 0

abbrev hbmTy0_0 (i : Nat) : BufTy := match i % 128 with
  | 0 => ⟨S100000x8, .f32⟩
  | 1 => ⟨S3200000, .i32⟩
  | 2 => ⟨S3200000, .i32⟩
  | 3 => ⟨S64x8, .f32⟩
  | 4 => ⟨S64, .f32⟩
  | 5 => ⟨S3x64x64, .f32⟩
  | 6 => ⟨S3x64x64, .f32⟩
  | 7 => ⟨S3x64, .f32⟩
  | 8 => ⟨S3x64, .f32⟩
  | 9 => ⟨S3x64, .f32⟩
  | 10 => ⟨S_, .f32⟩
  | 11 => ⟨S3200000, .f32⟩
  | 12 => ⟨S_, .f32⟩
  | 13 => ⟨S100000, .f32⟩
  | 14 => ⟨S3200000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S100000x1, .f32⟩
  | 30 => ⟨S8x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000x64, .f32⟩
  | 47 => ⟨S_, .f32⟩
  | 48 => ⟨S100000x64, .f32⟩
  | 49 => ⟨S3200000x1, .i32⟩
  | 50 => ⟨S100000x64, .f32⟩
  | 51 => ⟨S100000x64, .f32⟩
  | 52 => ⟨S100000x64, .f32⟩
  | 53 => ⟨S1x64x64, .f32⟩
  | 54 => ⟨S64x64, .f32⟩
  | 55 => ⟨S64x64, .f32⟩
  | 56 => ⟨S100000x64, .f32⟩
  | 57 => ⟨S1x64x64, .f32⟩
  | 58 => ⟨S64x64, .f32⟩
  | 59 => ⟨S64x64, .f32⟩
  | 60 => ⟨S100000x64, .f32⟩
  | 61 => ⟨S100000x64, .f32⟩
  | 62 => ⟨S1x64, .f32⟩
  | 63 => ⟨S64, .f32⟩
  | 64 => ⟨S1x64, .f32⟩
  | 65 => ⟨S100000x64, .f32⟩
  | 66 => ⟨S100000x64, .f32⟩
  | 67 => ⟨S1x64, .f32⟩
  | 68 => ⟨S64, .f32⟩
  | 69 => ⟨S1x64, .f32⟩
  | 70 => ⟨S64, .f32⟩
  | 71 => ⟨S_, .f32⟩
  | 72 => ⟨S100000, .f32⟩
  | 73 => ⟨S100000x1, .f32⟩
  | 74 => ⟨S_, .f32⟩
  | 75 => ⟨S100000x1, .f32⟩
  | 76 => ⟨S100000x1, .f32⟩
  | 77 => ⟨S100000x64, .f32⟩
  | 78 => ⟨S100000x64, .f32⟩
  | 79 => ⟨S100000x64, .f32⟩
  | 80 => ⟨S_, .f32⟩
  | 81 => ⟨S100000, .f32⟩
  | 82 => ⟨S100000x1, .f32⟩
  | 83 => ⟨S_, .f32⟩
  | 84 => ⟨S100000x1, .f32⟩
  | 85 => ⟨S100000x1, .f32⟩
  | 86 => ⟨S100000x64, .f32⟩
  | 87 => ⟨S100000x64, .f32⟩
  | 88 => ⟨S_, .f32⟩
  | 89 => ⟨S100000x1, .f32⟩
  | 90 => ⟨S100000x1, .f32⟩
  | 91 => ⟨S100000x1, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S100000x64, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000x64, .f32⟩
  | 113 => ⟨S_, .f32⟩
  | 114 => ⟨S100000x64, .f32⟩
  | 115 => ⟨S3200000x1, .i32⟩
  | 116 => ⟨S100000x64, .f32⟩
  | 117 => ⟨S100000x64, .f32⟩
  | 118 => ⟨S100000x64, .f32⟩
  | 119 => ⟨S1x64x64, .f32⟩
  | 120 => ⟨S64x64, .f32⟩
  | 121 => ⟨S64x64, .f32⟩
  | 122 => ⟨S100000x64, .f32⟩
  | 123 => ⟨S1x64x64, .f32⟩
  | 124 => ⟨S64x64, .f32⟩
  | 125 => ⟨S64x64, .f32⟩
  | 126 => ⟨S100000x64, .f32⟩
  | 127 => ⟨S100000x64, .f32⟩
  | _ => ⟨S100000x8, .f32⟩

abbrev hbmTy0_1 (i : Nat) : BufTy := match i % 128 with
  | 0 => ⟨S1x64, .f32⟩
  | 1 => ⟨S64, .f32⟩
  | 2 => ⟨S1x64, .f32⟩
  | 3 => ⟨S100000x64, .f32⟩
  | 4 => ⟨S100000x64, .f32⟩
  | 5 => ⟨S1x64, .f32⟩
  | 6 => ⟨S64, .f32⟩
  | 7 => ⟨S1x64, .f32⟩
  | 8 => ⟨S64, .f32⟩
  | 9 => ⟨S_, .f32⟩
  | 10 => ⟨S100000, .f32⟩
  | 11 => ⟨S100000x1, .f32⟩
  | 12 => ⟨S_, .f32⟩
  | 13 => ⟨S100000x1, .f32⟩
  | 14 => ⟨S100000x1, .f32⟩
  | 15 => ⟨S100000x64, .f32⟩
  | 16 => ⟨S100000x64, .f32⟩
  | 17 => ⟨S100000x64, .f32⟩
  | 18 => ⟨S_, .f32⟩
  | 19 => ⟨S100000, .f32⟩
  | 20 => ⟨S100000x1, .f32⟩
  | 21 => ⟨S_, .f32⟩
  | 22 => ⟨S100000x1, .f32⟩
  | 23 => ⟨S100000x1, .f32⟩
  | 24 => ⟨S100000x64, .f32⟩
  | 25 => ⟨S100000x64, .f32⟩
  | 26 => ⟨S_, .f32⟩
  | 27 => ⟨S100000x1, .f32⟩
  | 28 => ⟨S100000x1, .f32⟩
  | 29 => ⟨S100000x1, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S100000x64, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x64, .f32⟩
  | 51 => ⟨S_, .f32⟩
  | 52 => ⟨S100000x64, .f32⟩
  | 53 => ⟨S3200000x1, .i32⟩
  | 54 => ⟨S100000x64, .f32⟩
  | 55 => ⟨S100000x64, .f32⟩
  | 56 => ⟨S100000x64, .f32⟩
  | 57 => ⟨S1x64x64, .f32⟩
  | 58 => ⟨S64x64, .f32⟩
  | 59 => ⟨S64x64, .f32⟩
  | 60 => ⟨S100000x64, .f32⟩
  | 61 => ⟨S1x64x64, .f32⟩
  | 62 => ⟨S64x64, .f32⟩
  | 63 => ⟨S64x64, .f32⟩
  | 64 => ⟨S100000x64, .f32⟩
  | 65 => ⟨S100000x64, .f32⟩
  | 66 => ⟨S1x64, .f32⟩
  | 67 => ⟨S64, .f32⟩
  | 68 => ⟨S1x64, .f32⟩
  | 69 => ⟨S100000x64, .f32⟩
  | 70 => ⟨S100000x64, .f32⟩
  | 71 => ⟨S1x64, .f32⟩
  | 72 => ⟨S64, .f32⟩
  | 73 => ⟨S1x64, .f32⟩
  | 74 => ⟨S64, .f32⟩
  | 75 => ⟨S_, .f32⟩
  | 76 => ⟨S100000, .f32⟩
  | 77 => ⟨S100000x1, .f32⟩
  | 78 => ⟨S_, .f32⟩
  | 79 => ⟨S100000x1, .f32⟩
  | 80 => ⟨S100000x1, .f32⟩
  | 81 => ⟨S100000x64, .f32⟩
  | 82 => ⟨S100000x64, .f32⟩
  | 83 => ⟨S100000x64, .f32⟩
  | 84 => ⟨S_, .f32⟩
  | 85 => ⟨S100000, .f32⟩
  | 86 => ⟨S100000x1, .f32⟩
  | 87 => ⟨S_, .f32⟩
  | 88 => ⟨S100000x1, .f32⟩
  | 89 => ⟨S100000x1, .f32⟩
  | 90 => ⟨S100000x64, .f32⟩
  | 91 => ⟨S100000x64, .f32⟩
  | 92 => ⟨S_, .f32⟩
  | 93 => ⟨S100000x1, .f32⟩
  | 94 => ⟨S100000x1, .f32⟩
  | 95 => ⟨S100000x1, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S100000x64, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_cst : Ref sig .tc := ⟨.hbm, 35, rfl⟩
abbrev main_call1_v0 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call2_cst : Ref sig .tc := ⟨.hbm, 100, rfl⟩
abbrev main_call2_v0 : Ref sig .tc := ⟨.hbm, 101, rfl⟩
abbrev main_v72 : Ref sig .tc := ⟨.hbm, 102, rfl⟩
abbrev main_v73 : Ref sig .tc := ⟨.hbm, 103, rfl⟩
abbrev main_c_12 : Ref sig .tc := ⟨.hbm, 104, rfl⟩
abbrev main_v74 : Ref sig .tc := ⟨.hbm, 105, rfl⟩
abbrev main_v75 : Ref sig .tc := ⟨.hbm, 106, rfl⟩
abbrev main_c_13 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_15 : Ref sig .tc := ⟨.hbm, 137, rfl⟩
abbrev main_v104 : Ref sig .tc := ⟨.hbm, 138, rfl⟩
abbrev main_v105 : Ref sig .tc := ⟨.hbm, 139, rfl⟩
abbrev main_cst_16 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_17 : Ref sig .tc := ⟨.hbm, 146, rfl⟩
abbrev main_v111 : Ref sig .tc := ⟨.hbm, 147, rfl⟩
abbrev main_v112 : Ref sig .tc := ⟨.hbm, 148, rfl⟩
abbrev main_cst_18 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_19 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_call3_cst : Ref sig .tc := ⟨.hbm, 166, rfl⟩
abbrev main_call3_v0 : Ref sig .tc := ⟨.hbm, 167, rfl⟩
abbrev main_v128 : Ref sig .tc := ⟨.hbm, 168, rfl⟩
abbrev main_v129 : Ref sig .tc := ⟨.hbm, 169, rfl⟩
abbrev main_c_20 : Ref sig .tc := ⟨.hbm, 170, rfl⟩
abbrev main_v130 : Ref sig .tc := ⟨.hbm, 171, rfl⟩
abbrev main_v131 : Ref sig .tc := ⟨.hbm, 172, rfl⟩
abbrev main_c_21 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_22 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_cst_23 : Ref sig .tc := ⟨.hbm, 203, rfl⟩
abbrev main_v160 : Ref sig .tc := ⟨.hbm, 204, rfl⟩
abbrev main_v161 : Ref sig .tc := ⟨.hbm, 205, rfl⟩
abbrev main_cst_24 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_25 : Ref sig .tc := ⟨.hbm, 212, rfl⟩
abbrev main_v167 : Ref sig .tc := ⟨.hbm, 213, rfl⟩
abbrev main_v168 : Ref sig .tc := ⟨.hbm, 214, rfl⟩
abbrev main_cst_26 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_27 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_call4_cst : Ref sig .tc := ⟨.hbm, 232, rfl⟩
abbrev main_call4_v0 : Ref sig .tc := ⟨.hbm, 233, rfl⟩
abbrev main_v184 : Ref sig .tc := ⟨.hbm, 234, rfl⟩
abbrev main_v185 : Ref sig .tc := ⟨.hbm, 235, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  transposes_S64x8_S8x64_1_0 : S64x8.Transposes [1, 0] S8x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  reducesTo_S100000x64_S100000_d1 : S100000x64.ReducesTo [1] S100000
  h_S_ : 0 < S_.numel
  bcast_S_S100000x1 : S_.BroadcastsInDim S100000x1 (![] : Fin 0 → Fin S100000x1.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S100000_S3200000x1_S3200000_n_0_0_1_wf : ScatterDims.WF S100000 S3200000x1 S3200000 [] [0] [0] 1
  dot_S100000x8_S8x64_S100000x64_1_0_0_1_n_n_wf : DotDims.WF S100000x8 S8x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.NetRun.lean ====
/-
  The idealized kernel's run with its result named.

  The program is ten segments: stretches of host operations and four tiled regions. Its generated frame walks
  the buffers' contents from the launch memory through every segment (`W0`, …, `W10`) and concludes that the
  arguments end as launched. The same walk says more: EVERY buffer that outlives the regions ends at its `W10`
  contents. Here the walk is run once more keeping, beside the arguments, the result buffer (the last region's
  output array), which therefore ends at `W10` read at that buffer. What that array is, as a function of the
  arguments, is the business of the modules that follow.
-/
import proofs.«134528_j43946105373340_1_alg».proof.Proof.Gen.KernelIdeal.Frame

set_option maxRecDepth 16384

noncomputable section

namespace Cert.KernelIdeal.NetRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the arguments as launched. -/
theorem run_named : θ_run defs (onTc (τ := τ) (main (F := F))) ⟨m, fun _ => 0, ρ⟩ (fun r => ∀ c : Dev nD,
      r.2.mem ((c.tc : Thread nD τ).loc main_v91) = W10 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v91 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.NetRun

end
-- ==== Proof.RefRun.lean ====
/-
  The reference's run, with its result at the last stage.

  The reference is a straight line of 226 host operations. Every weakly fair execution of it terminates, each buffer
  ending at what the operations, run in order, leave in it. The buffer the program returns is written by the last
  operation; followed back through the line, operation by operation, its contents are the last of the stages that name
  each operation's value as a function of the arguments — a value shared between several later operations being named
  once, not copied. The arguments are written by no operation.
-/
import proofs.«134528_j43946105373340_1_alg».proof.Proof.RefReadP
import Idealize.ShloMosaic.Lib.StableHlo.Run

noncomputable section

namespace Cert.ReferenceIdeal.NetRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 90400000 in
/-- On every device, from any memory with zero counters: every weakly fair execution of the reference terminates with
    the result buffer at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v185) = Cert.ReferenceIdeal.ReadP.val_main_v185 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v185).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.NetRun

end
-- ==== Proof.Region3Blocks.lean ====
/-
  Region 3 of the idealized kernel (a network layer), block by block.

  The region visits 20 points; at point `t` the two feature matrices (own features and averaged neighbour features,
  100000 × 64) and the output are seen through blocks of 5000 rows, rows `5000·t … 5000·t + 4999`, while the two
  weight matrices and the three parameter rows are each one block, the whole array, at every point. This module reads
  each window's block at a point off the array as the region finds it, entry by entry, and shows that the output's
  twenty blocks tile the 100000 rows. Everything is stated for arbitrary contents `V` of the buffers at the region's
  entry.
-/
import proofs.«134528_j43946105373340_1_alg».proof.Proof.Gen.KernelIdeal.Frame
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The printed index maps, decided over the 20 points: the three row-blocked windows are at block `(t, 0)`, the
    five whole-array windows at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row `p` of the block at point `t`, as a row of the whole matrix. -/
def rowOf (t : Fin cfg3.N) (p : Fin 5000) : Fin 100000 :=
  ⟨5000 * t.val + p.val, by have ht := t.isLt; have hN : cfg3.N = 20 := N_3; have hp := p.isLt; omega⟩

theorem rowOf_val (t : Fin cfg3.N) (p : Fin 5000) : (rowOf t p).val = 5000 * t.val + p.val := rfl

/-- Window 0's block at point `t` is rows `5000·t … 5000·t + 4999` of its array. -/
theorem block0_entry (c : Dev nD) (t : Fin cfg3.N) (p : Fin 5000) (k : Fin 64) :
    iblk3 V c 0 t (ix2 p k) = V c (Pipeline.arrRef spec3 0) (ix2 (rowOf t p) k) := by
  obtain ⟨e00, e01, e10, e11, e20, e21, e30, e31, e40, e41, e50, e51, e60, e61, e70, e71⟩ := idx_facts t
  show V c (Pipeline.arrRef spec3 0) (((cfg3.win 0).blk t).view.emb (ix2 p k)) = _
  refine congrArg (V c (Pipeline.arrRef spec3 0)) ?_
  funext a; apply Fin.ext
  match a with
  | ⟨0, _⟩ => show win3_0.index t (0 : Fin 2) * 5000 + 1 * p.val = 5000 * t.val + p.val; omega
  | ⟨1, _⟩ => show win3_0.index t (1 : Fin 2) * 64 + 1 * k.val = k.val; omega

/-- Window 1's block at point `t` is rows `5000·t … 5000·t + 4999` of its array. -/
theorem block1_entry (c : Dev nD) (t : Fin cfg3.N) (p : Fin 5000) (k : Fin 64) :
    iblk3 V c 1 t (ix2 p k) = V c (Pipeline.arrRef spec3 1) (ix2 (rowOf t p) k) := by
  obtain ⟨e00, e01, e10, e11, e20, e21, e30, e31, e40, e41, e50, e51, e60, e61, e70, e71⟩ := idx_facts t
  show V c (Pipeline.arrRef spec3 1) (((cfg3.win 1).blk t).view.emb (ix2 p k)) = _
  refine congrArg (V c (Pipeline.arrRef spec3 1)) ?_
  funext a; apply Fin.ext
  match a with
  | ⟨0, _⟩ => show win3_1.index t (0 : Fin 2) * 5000 + 1 * p.val = 5000 * t.val + p.val; omega
  | ⟨1, _⟩ => show win3_1.index t (1 : Fin 2) * 64 + 1 * k.val = k.val; omega

/-- Window 2 has one block, its whole array, at every point. -/
theorem block2_entry (c : Dev nD) (t : Fin cfg3.N) (p : Fin 64) (k : Fin 64) :
    iblk3 V c 2 t (ix2 p k) = V c (Pipeline.arrRef spec3 2) (ix2 p k) := by
  obtain ⟨e00, e01, e10, e11, e20, e21, e30, e31, e40, e41, e50, e51, e60, e61, e70, e71⟩ := idx_facts t
  show V c (Pipeline.arrRef spec3 2) (((cfg3.win 2).blk t).view.emb (ix2 p k)) = _
  refine congrArg (V c (Pipeline.arrRef spec3 2)) ?_
  funext a; apply Fin.ext
  match a with
  | ⟨0, _⟩ => show win3_2.index t (0 : Fin 2) * 64 + 1 * p.val = p.val; omega
  | ⟨1, _⟩ => show win3_2.index t (1 : Fin 2) * 64 + 1 * k.val = k.val; omega

/-- Window 3 has one block, its whole array, at every point. -/
theorem block3_entry (c : Dev nD) (t : Fin cfg3.N) (p : Fin 64) (k : Fin 64) :
    iblk3 V c 3 t (ix2 p k) = V c (Pipeline.arrRef spec3 3) (ix2 p k) := by
  obtain ⟨e00, e01, e10, e11, e20, e21, e30, e31, e40, e41, e50, e51, e60, e61, e70, e71⟩ := idx_facts t
  show V c (Pipeline.arrRef spec3 3) (((cfg3.win 3).blk t).view.emb (ix2 p k)) = _
  refine congrArg (V c (Pipeline.arrRef spec3 3)) ?_
  funext a; apply Fin.ext
  match a with
  | ⟨0, _⟩ => show win3_3.index t (0 : Fin 2) * 64 + 1 * p.val = p.val; omega
  | ⟨1, _⟩ => show win3_3.index t (1 : Fin 2) * 64 + 1 * k.val = k.val; omega

/-- Window 4 has one block, its whole array, at every point. -/
theorem block4_entry (c : Dev nD) (t : Fin cfg3.N) (p : Fin 1) (k : Fin 64) :
    iblk3 V c 4 t (ix2 p k) = V c (Pipeline.arrRef spec3 4) (ix2 p k) := by
  obtain ⟨e00, e01, e10, e11, e20, e21, e30, e31, e40, e41, e50, e51, e60, e61, e70, e71⟩ := idx_facts t
  show V c (Pipeline.arrRef spec3 4) (((cfg3.win 4).blk t).view.emb (ix2 p k)) = _
  refine congrArg (V c (Pipeline.arrRef spec3 4)) ?_
  funext a; apply Fin.ext
  match a with
  | ⟨0, _⟩ => show win3_4.index t (0 : Fin 2) * 1 + 1 * p.val = p.val; omega
  | ⟨1, _⟩ => show win3_4.index t (1 : Fin 2) * 64 + 1 * k.val = k.val; omega

/-- Window 5 has one block, its whole array, at every point. -/
theorem block5_entry (c : Dev nD) (t : Fin cfg3.N) (p : Fin 1) (k : Fin 64) :
    iblk3 V c 5 t (ix2 p k) = V c (Pipeline.arrRef spec3 5) (ix2 p k) := by
  obtain ⟨e00, e01, e10, e11, e20, e21, e30, e31, e40, e41, e50, e51, e60, e61, e70, e71⟩ := idx_facts t
  show V c (Pipeline.arrRef spec3 5) (((cfg3.win 5).blk t).view.emb (ix2 p k)) = _
  refine congrArg (V c (Pipeline.arrRef spec3 5)) ?_
  funext a; apply Fin.ext
  match a with
  | ⟨0, _⟩ => show win3_5.index t (0 : Fin 2) * 1 + 1 * p.val = p.val; omega
  | ⟨1, _⟩ => show win3_5.index t (1 : Fin 2) * 64 + 1 * k.val = k.val; omega

/-- Window 6 has one block, its whole array, at every point. -/
theorem block6_entry (c : Dev nD) (t : Fin cfg3.N) (p : Fin 1) (k : Fin 64) :
    iblk3 V c 6 t (ix2 p k) = V c (Pipeline.arrRef spec3 6) (ix2 p k) := by
  obtain ⟨e00, e01, e10, e11, e20, e21, e30, e31, e40, e41, e50, e51, e60, e61, e70, e71⟩ := idx_facts t
  show V c (Pipeline.arrRef spec3 6) (((cfg3.win 6).blk t).view.emb (ix2 p k)) = _
  refine congrArg (V c (Pipeline.arrRef spec3 6)) ?_
  funext a; apply Fin.ext
  match a with
  | ⟨0, _⟩ => show win3_6.index t (0 : Fin 2) * 1 + 1 * p.val = p.val; omega
  | ⟨1, _⟩ => show win3_6.index t (1 : Fin 2) * 64 + 1 * k.val = k.val; omega

/-- The output block at point `t` sits at rows `5000·t …` of the output array. -/
theorem out_emb (t : Fin cfg3.N) (p : Fin 5000) (k : Fin 64) :
    ((cfg3.win 7).blk t).view.emb (ix2 p k) = ix2 (rowOf t p) k := by
  obtain ⟨e00, e01, e10, e11, e20, e21, e30, e31, e40, e41, e50, e51, e60, e61, e70, e71⟩ := idx_facts t
  funext a; apply Fin.ext
  match a with
  | ⟨0, _⟩ => show win3_7.index t (0 : Fin 2) * 5000 + 1 * p.val = 5000 * t.val + p.val; omega
  | ⟨1, _⟩ => show win3_7.index t (1 : Fin 2) * 64 + 1 * k.val = k.val; omega

/-- An index of the output array is in point `t`'s block iff each coordinate is in the block's range on its axis. -/
theorem mem_blk (t : Fin cfg3.N) (i : S100000x64.Idx) :
    i ∈ ((cfg3.win 7).blk t).view.set ↔ ∀ a : Fin 2, win3_7.index t a * S5000x64.size a ≤ (i a).val ∧ (i a).val < win3_7.index t a * S5000x64.size a + S5000x64.size a := by
  show i ∈ ((View.whole main_v91).slice (win3_7.rect t)).set ↔ _
  rw [View.set_slice_whole, Rect.mem_set_unit]
  exact Iff.rfl

/-- Every entry of the output array is in the block of the point that holds its row: point `row / 5000`. -/
theorem cover (i : S100000x64.Idx) :
    ∃ t : Fin cfg3.N, (cfg3.win 7).flush t = true ∧ i ∈ ((cfg3.win 7).blk t).view.set := by
  have hN : cfg3.N = 20 := N_3
  have hi0 : (i 0).val < 100000 := (i 0).isLt
  have hi1 : (i 1).val < 64 := (i 1).isLt
  let t : Fin cfg3.N := ⟨(i 0).val / 5000, by omega⟩
  have htv : t.val = (i 0).val / 5000 := rfl
  obtain ⟨e00, e01, e10, e11, e20, e21, e30, e31, e40, e41, e50, e51, e60, e61, e70, e71⟩ := idx_facts t
  refine ⟨t, flush3_7 t, ?_⟩
  rw [mem_blk]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 64 ≤ (i 1).val ∧ (i 1).val < win3_7.index t (1 : Fin 2) * 64 + 64; omega

end Cert.KernelIdeal.Region3

end
-- ==== Proof.NodeRows.lean ====
/-
  One node's row of features through the network, on the extended reals.

  Both programs treat every node (a row of the feature matrix) separately, once the row of averaged neighbour
  features is given:
  * the input projection sends a row `x` of 8 features to  `max (Σ_k x_k · W_jk + b_j) 0`,  j < 64;
  * a layer sends a row `h`, with the neighbour row `n`, to
      `h_j + max (((s_j − μ) · rsqrt (σ² + ε)) · γ_j + β_j) 0`,
    where  `s_j = (Σ_k h_k · Ws_jk + Σ_k n_k · Wn_jk) + bias_j`,  `μ = (Σ_j s_j) / 64`  and
    `σ² = (Σ_j (s_j − μ) · (s_j − μ)) / 64`  (layer normalisation over the 64 features, then scale, shift,
    rectify, and add the row back).
  The three numbers 0, 64 and ε enter as the binary words both programs carry; nothing here evaluates them.
  The sums are plain finite sums: on the extended reals addition is commutative and associative, so the order in
  which a program accumulates them does not matter, and no finiteness is assumed anywhere.
-/
import Idealize.ShloMosaic.PureOps.Ideal
import Idealize.ShloMosaic.Lib.ValueIdx

noncomputable section

open scoped BigOperators

namespace Cert.NodeRows

open Idealize.ShloMosaic

/-- The word of `0.0`. -/
abbrev zeroW : EReal := Ideal.ofBits .f32 0x00000000#32
/-- The word of `64.0`, the number of features a row is averaged over. -/
abbrev sixtyFour : EReal := Ideal.ofBits .f32 0x42800000#32
/-- The word of the normalisation's ε. -/
abbrev eps : EReal := Ideal.ofBits .f32 0x3727C5AC#32

/-- Entry `j` of the projected input row. -/
def projRow (x : Fin 8 → EReal) (w : Fin 64 → Fin 8 → EReal) (b : Fin 64 → EReal) (j : Fin 64) : EReal :=
  max ((∑ k : Fin 8, x k * w j k) + b j) zeroW

/-- Entry `j` of a layer's row before normalisation: own features and neighbour features, each through its
    weight matrix, plus the bias. -/
def pre (h n : Fin 64 → EReal) (ws wn : Fin 64 → Fin 64 → EReal) (b : Fin 64 → EReal) (j : Fin 64) : EReal :=
  ((∑ k : Fin 64, h k * ws j k) + (∑ k : Fin 64, n k * wn j k)) + b j

/-- The mean of a row of 64 entries. -/
def mean (s : Fin 64 → EReal) : EReal := Ideal.div (∑ j : Fin 64, s j) sixtyFour

/-- The mean squared deviation of a row from its mean. -/
def variance (s : Fin 64 → EReal) : EReal :=
  Ideal.div (∑ j : Fin 64, (s j - mean s) * (s j - mean s)) sixtyFour

/-- Entry `j` of the normalised row. -/
def normed (s : Fin 64 → EReal) (j : Fin 64) : EReal := (s j - mean s) * Ideal.rsqrt (variance s + eps)

/-- Entry `j` of a layer's output row. -/
def layerRow (h n : Fin 64 → EReal) (ws wn : Fin 64 → Fin 64 → EReal) (b g be : Fin 64 → EReal) (j : Fin 64) : EReal :=
  h j + max (normed (pre h n ws wn b) j * g j + be j) zeroW

end Cert.NodeRows

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.KernelRows.lean ====
/-
  The kernel's two bodies read at an entry, on the extended reals.

  The input projection's body and a layer's body are each one pure term over the blocks they read. Read at entry
  (p, j) of the block of 5000 rows, each is the row function of `NodeRows` applied to row p of its operands:
  * the projection multiplies the block of features by the transposed weights into a zero accumulator, adds the bias row
    under every row and rectifies: `projRow`;
  * a layer multiplies the rows by one transposed weight matrix and the neighbour rows by another, adds the two products and the
    bias row (`pre`), takes each row's mean and mean squared deviation as columns kept beside the array (`mean`,
    `variance`), scales the deviations by the reciprocal root of variance plus ε (`normed`), and finishes with scale,
    shift, rectification and the row itself added back: `layerRow`.
  Format changes are the identity on the extended reals, a cast of an array to its own shape is the array, and a matrix
  transposed reads at (k, j) what the matrix has at (j, k); a product into the zero accumulator is the plain sum over the
  contracted coordinate. The layer body is cut once, at the array before normalisation, so that the normalisation is
  read over an arbitrary array and the two sums over a row meet `pre` entry by entry.
  The second and third layer bodies are the same term as the first.
-/
import proofs.«134528_j43946105373340_1_alg».proof.Proof.Gen.KernelIdeal.Skeleton
import proofs.«134528_j43946105373340_1_alg».proof.Proof.NodeRows
import proofs.«134528_j43946105373340_1_alg».proof.Proof.LibKeepdims
import proofs.«134528_j43946105373340_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelRows

open Cert.KernelIdeal Cert.KernelIdeal.Gen Cert.NodeRows Idealize.ShloMosaic Idealize.ShloMosaic.ValueIdx

/-! ## The input projection -/

/-- Entry `(p, j)` of the projection body: row `p` of the features against row `j` of the weights (the weights are
    transposed before the product, so the product's column `j` is their row `j`), plus the bias, rectified. -/
theorem proj_entry (x0 : Vec Ideal S5000x8 .f32) (x1 : Vec Ideal S64x8 .f32) (x2 : Vec Ideal S1x64 .f32) (p : Fin 5000) (j : Fin 64) :
    k0_pay1 x0 x1 x2 (ix2 p j)
      = projRow (fun k => x0 (ix2 p k)) (fun j k => x1 (ix2 j k)) (fun j => x2 (ix2 (0 : Fin 1) j)) j := by
  unfold k0_pay1 projRow
  rw [maximumf_apply, addf_apply, broadcast_apply,
    PlainDot.matmul_zero_apply (M := 5000) (K := 8) (N := 64) dot_S5000x8_S8x64_S5000x64_1_0_0_1_n_n rfl,
    broadcastTo_1b_ab_apply, shapeCast_self]
  refine congrArg (fun s => max (s + x2 (ix2 (0 : Fin 1) j)) zeroW) ?_
  refine Finset.sum_congr rfl fun k _ => ?_
  show (x0 (ix2 p k) : EReal)
      * (transpose S8x64 [1, 0] (truncf .bf16 x1 bitsLt_bf16_f32 : FVec Ideal S64x8 .bf16) transposes_S64x8_p1_0_S8x64 (ix2 k j) : EReal)
    = (x0 (ix2 p k) : EReal) * (x1 (ix2 j k) : EReal)
  rw [transpose_ix2_apply]
  rfl

/-! ## A layer body, cut at the row before normalisation -/

/-- The body's array before normalisation: the rows through the first weights, the neighbour rows through the second,
    and the bias row under every row. -/
def preV (x0 x1 : Vec Ideal S5000x64 .f32) (x2 x3 : Vec Ideal S64x64 .f32) (x4 : Vec Ideal S1x64 .f32) :
    FVec Ideal S5000x64 .f32 :=
  addf
    (addf
      (matmul dot_S5000x64_S64x64_S5000x64_1_0_0_1_n_n none (truncf .bf16 (k1_pay2 x0) bitsLt_bf16_f32)
        (transpose S64x64 [1, 0] (truncf .bf16 (shapeCast S64x64 x2 shapeCasts_S64x64_S64x64) bitsLt_bf16_f32)
          transposes_S64x64_p1_0_S64x64)
        (constant S5000x64 .f32 0x00000000#32))
      (matmul dot_S5000x64_S64x64_S5000x64_1_0_0_1_n_n none
        (truncf .bf16 (shapeCast S5000x64 x1 shapeCasts_S5000x64_S5000x64) bitsLt_bf16_f32)
        (transpose S64x64 [1, 0] (truncf .bf16 (shapeCast S64x64 x3 shapeCasts_S64x64_S64x64) bitsLt_bf16_f32)
          transposes_S64x64_p1_0_S64x64)
        (constant S5000x64 .f32 0x00000000#32)))
    (broadcastTo S5000x64 (shapeCast S1x64 x4 shapeCasts_S1x64_S1x64) broadcasts_S1x64_S5000x64)

/-- The column of row means of an array: each row's lane sum, kept as a column, over the word of 64. -/
def meanCol (s : FVec Ideal S5000x64 .f32) : FVec Ideal S5000x1 .f32 :=
  divf
    (shapeCast S5000x1 (multiReduction .add [1] S5000 s 0x00000000#32 reduces_S5000x64_S5000 (.inl rfl) rfl)
      shapeCasts_S5000_S5000x1)
    (broadcast S5000x1 (Scalar.ofBits .f32 0x42800000#32))

/-- An array minus its column of row means. -/
def devV (s : FVec Ideal S5000x64 .f32) : FVec Ideal S5000x64 .f32 :=
  subf s (broadcastTo S5000x64 (meanCol s) broadcasts_S5000x1_S5000x64)

/-- The array after normalisation: the deviations times the reciprocal root of their row's mean square plus ε. -/
def normV (s : FVec Ideal S5000x64 .f32) : FVec Ideal S5000x64 .f32 :=
  mulf (devV s)
    (broadcastTo S5000x64
      (rsqrt (addf (meanCol (mulf (devV s) (devV s))) (broadcast S5000x1 (Scalar.ofBits .f32 0x3727C5AC#32))))
      broadcasts_S5000x1_S5000x64)

/-- The body's normalised array is the normalisation of its array before normalisation. -/
theorem k1_pay3_eq (x0 x1 : Vec Ideal S5000x64 .f32) (x2 x3 : Vec Ideal S64x64 .f32) (x4 : Vec Ideal S1x64 .f32) :
    k1_pay3 x0 x1 x2 x3 x4 = normV (preV x0 x1 x2 x3 x4) := rfl

/-- Entry `(p, j)` of the array before normalisation is `pre` of row `p`, its neighbour row, the two weight matrices
    (each transposed before its product) and the bias, at `j`. -/
theorem preV_entry (x0 x1 : Vec Ideal S5000x64 .f32) (x2 x3 : Vec Ideal S64x64 .f32) (x4 : Vec Ideal S1x64 .f32)
    (p : Fin 5000) (j : Fin 64) :
    preV x0 x1 x2 x3 x4 (ix2 p j)
      = pre (fun k => x0 (ix2 p k)) (fun k => x1 (ix2 p k)) (fun j k => x2 (ix2 j k)) (fun j k => x3 (ix2 j k))
          (fun j => x4 (ix2 (0 : Fin 1) j)) j := by
  unfold preV pre k1_pay2
  rw [addf_apply, addf_apply,
    PlainDot.matmul_zero_apply (M := 5000) (K := 64) (N := 64) dot_S5000x64_S64x64_S5000x64_1_0_0_1_n_n rfl,
    PlainDot.matmul_zero_apply (M := 5000) (K := 64) (N := 64) dot_S5000x64_S64x64_S5000x64_1_0_0_1_n_n rfl,
    broadcastTo_1b_ab_apply]
  simp only [shapeCast_self]
  refine congrArg₂ (fun a b : EReal => a + b + x4 (ix2 (0 : Fin 1) j))
    (Finset.sum_congr rfl fun k _ => ?_) (Finset.sum_congr rfl fun k _ => ?_)
  · show (x0 (ix2 p k) : EReal)
        * (transpose S64x64 [1, 0] (truncf .bf16 x2 bitsLt_bf16_f32 : FVec Ideal S64x64 .bf16)
            transposes_S64x64_p1_0_S64x64 (ix2 k j) : EReal)
      = (x0 (ix2 p k) : EReal) * (x2 (ix2 j k) : EReal)
    rw [transpose_ix2_apply]
    rfl
  · show (x1 (ix2 p k) : EReal)
        * (transpose S64x64 [1, 0] (truncf .bf16 x3 bitsLt_bf16_f32 : FVec Ideal S64x64 .bf16)
            transposes_S64x64_p1_0_S64x64 (ix2 k j) : EReal)
      = (x1 (ix2 p k) : EReal) * (x3 (ix2 j k) : EReal)
    rw [transpose_ix2_apply]
    rfl

/-- The column of row means, at row `p`, is the mean of row `p`. -/
theorem meanCol_entry (s : FVec Ideal S5000x64 .f32) (p : Fin 5000) (u : Fin 1) :
    meanCol s (ix2 p u) = mean (fun k => s (ix2 p k)) := by
  unfold meanCol mean
  rw [divf_apply, broadcast_apply, shapeCast_a_a1_apply,
    multiReduction_add_axis1_apply (a := 5000) (b := 64) s reduces_S5000x64_S5000 (.inl rfl) rfl p]
  rfl

/-- An entry of the deviations: the entry minus its row's mean. -/
theorem devV_entry (s : FVec Ideal S5000x64 .f32) (p : Fin 5000) (j : Fin 64) :
    devV s (ix2 p j) = s (ix2 p j) - mean (fun k => s (ix2 p k)) := by
  unfold devV
  rw [subf_apply, broadcastTo_a1_ab_apply, meanCol_entry]

/-- The column of row means of the squared deviations, at row `p`, is the variance of row `p`. -/
theorem varCol_entry (s : FVec Ideal S5000x64 .f32) (p : Fin 5000) (u : Fin 1) :
    meanCol (mulf (devV s) (devV s)) (ix2 p u) = variance (fun k => s (ix2 p k)) := by
  rw [meanCol_entry]
  show mean _ = mean _
  refine congrArg mean (funext fun k => ?_)
  rw [mulf_apply, devV_entry]

/-- An entry of the normalised array is `normed` of its row. -/
theorem normV_entry (s : FVec Ideal S5000x64 .f32) (p : Fin 5000) (j : Fin 64) :
    normV s (ix2 p j) = normed (fun k => s (ix2 p k)) j := by
  unfold normV normed
  rw [mulf_apply, devV_entry, broadcastTo_a1_ab_apply]
  show _ * Ideal.rsqrt (meanCol (mulf (devV s) (devV s)) (ix2 p (0 : Fin 1)) + eps) = _
  rw [varCol_entry]

/-- Entry `(p, j)` of a layer body: the normalised row scaled by γ, shifted by β, rectified, plus the row itself. -/
theorem layer_entry (x0 x1 : Vec Ideal S5000x64 .f32) (x2 x3 : Vec Ideal S64x64 .f32) (x4 x5 x6 : Vec Ideal S1x64 .f32)
    (p : Fin 5000) (j : Fin 64) :
    k1_pay1 (k1_pay2 x0) (k1_pay3 x0 x1 x2 x3 x4) x5 x6 (ix2 p j)
      = layerRow (fun k => x0 (ix2 p k)) (fun k => x1 (ix2 p k)) (fun j k => x2 (ix2 j k)) (fun j k => x3 (ix2 j k))
          (fun j => x4 (ix2 (0 : Fin 1) j)) (fun j => x5 (ix2 (0 : Fin 1) j)) (fun j => x6 (ix2 (0 : Fin 1) j)) j := by
  have hrow : (fun k => preV x0 x1 x2 x3 x4 (ix2 p k))
      = pre (fun k => x0 (ix2 p k)) (fun k => x1 (ix2 p k)) (fun j k => x2 (ix2 j k)) (fun j k => x3 (ix2 j k))
          (fun j => x4 (ix2 (0 : Fin 1) j)) :=
    funext fun k => preV_entry x0 x1 x2 x3 x4 p k
  unfold k1_pay1 layerRow
  rw [addf_apply, maximumf_apply, addf_apply, mulf_apply, broadcast_apply, broadcastTo_1b_ab_apply,
    broadcastTo_1b_ab_apply, k1_pay3_eq, normV_entry, hrow]
  simp only [shapeCast_self, k1_pay2]
  rfl

/-! ## The second and third layer bodies are the first one's term -/

/-- The second layer's body is, operation for operation, the first one's. -/
theorem pay_layer2 (x0 x1 : Vec Ideal S5000x64 .f32) (x2 x3 : Vec Ideal S64x64 .f32) (x4 x5 x6 : Vec Ideal S1x64 .f32) :
    k2_pay1 (k2_pay2 x0) (k2_pay3 x0 x1 x2 x3 x4) x5 x6 = k1_pay1 (k1_pay2 x0) (k1_pay3 x0 x1 x2 x3 x4) x5 x6 := rfl

/-- So is the third layer's. -/
theorem pay_layer3 (x0 x1 : Vec Ideal S5000x64 .f32) (x2 x3 : Vec Ideal S64x64 .f32) (x4 x5 x6 : Vec Ideal S1x64 .f32) :
    k3_pay1 (k3_pay2 x0) (k3_pay3 x0 x1 x2 x3 x4) x5 x6 = k1_pay1 (k1_pay2 x0) (k1_pay3 x0 x1 x2 x3 x4) x5 x6 := rfl

end Cert.KernelRows

end
-- ==== Proof.NodeArrays.lean ====
/-
  The network's two row maps applied to every row of a matrix.

  `projArr` sends a 100000 × 8 matrix, row by row, through the input projection; `layerArr` sends a 100000 × 64
  feature matrix, together with the matrix of averaged neighbour features, row by row through a layer. The weights are
  64 × 8 resp. 64 × 64 matrices (entry (j, k): output feature j, input feature k) and the bias, scale and shift are
  1 × 64 rows. These are the functions both programs compute, region by region and operation by operation.
-/
import proofs.«134528_j43946105373340_1_alg».proof.Proof.NodeRows

noncomputable section

namespace Cert.NodeRows

open Idealize.ShloMosaic Idealize.ShloMosaic.ValueIdx

/-- Entry (r, j) of the projected matrix. -/
def projAt (x : (⟨2, ![100000, 8]⟩ : Shape).Idx → EReal) (w : (⟨2, ![64, 8]⟩ : Shape).Idx → EReal)
    (b : (⟨2, ![1, 64]⟩ : Shape).Idx → EReal) (r : Fin 100000) (j : Fin 64) : EReal :=
  projRow (fun k => x (ix2 r k)) (fun j k => w (ix2 j k)) (fun j => b (ix2 (0 : Fin 1) j)) j

/-- The input projection of every row. -/
def projArr (x : (⟨2, ![100000, 8]⟩ : Shape).Idx → EReal) (w : (⟨2, ![64, 8]⟩ : Shape).Idx → EReal)
    (b : (⟨2, ![1, 64]⟩ : Shape).Idx → EReal) : (⟨2, ![100000, 64]⟩ : Shape).Idx → EReal :=
  fun i => projAt x w b (i 0) (i 1)

theorem projArr_apply (x : (⟨2, ![100000, 8]⟩ : Shape).Idx → EReal) (w : (⟨2, ![64, 8]⟩ : Shape).Idx → EReal)
    (b : (⟨2, ![1, 64]⟩ : Shape).Idx → EReal) (r : Fin 100000) (j : Fin 64) :
    projArr x w b (ix2 r j) = projAt x w b r j := rfl

/-- Entry (r, j) of a layer's output matrix. -/
def layerAt (h n : (⟨2, ![100000, 64]⟩ : Shape).Idx → EReal) (ws wn : (⟨2, ![64, 64]⟩ : Shape).Idx → EReal)
    (b g be : (⟨2, ![1, 64]⟩ : Shape).Idx → EReal) (r : Fin 100000) (j : Fin 64) : EReal :=
  layerRow (fun k => h (ix2 r k)) (fun k => n (ix2 r k)) (fun j k => ws (ix2 j k)) (fun j k => wn (ix2 j k))
    (fun j => b (ix2 (0 : Fin 1) j)) (fun j => g (ix2 (0 : Fin 1) j)) (fun j => be (ix2 (0 : Fin 1) j)) j

/-- A layer applied to every row. -/
def layerArr (h n : (⟨2, ![100000, 64]⟩ : Shape).Idx → EReal) (ws wn : (⟨2, ![64, 64]⟩ : Shape).Idx → EReal)
    (b g be : (⟨2, ![1, 64]⟩ : Shape).Idx → EReal) : (⟨2, ![100000, 64]⟩ : Shape).Idx → EReal :=
  fun i => layerAt h n ws wn b g be (i 0) (i 1)

theorem layerArr_apply (h n : (⟨2, ![100000, 64]⟩ : Shape).Idx → EReal) (ws wn : (⟨2, ![64, 64]⟩ : Shape).Idx → EReal)
    (b g be : (⟨2, ![1, 64]⟩ : Shape).Idx → EReal) (r : Fin 100000) (j : Fin 64) :
    layerArr h n ws wn b g be (ix2 r j) = layerAt h n ws wn b g be r j := rfl

end Cert.NodeRows

end
-- ==== Proof.Region3Value.lean ====
/-
  Region 3 of the idealized kernel (a network layer): its output array.

  At point `t` the body computes, from the blocks it is handed, the layer's row map on each of its 5000 rows; a block's
  row `p` is row `5000·t + p` of the feature matrices, and the weights and parameter rows are the whole arrays. So what
  point `t` writes back is block `t` of ONE matrix — the layer applied to every row of the arrays as the region finds
  them — and, the twenty blocks tiling the 100000 rows, that matrix is what the output array holds when the region is
  left. Stated for arbitrary contents `V` of the buffers at the region's entry.
-/
import proofs.«134528_j43946105373340_1_alg».proof.Proof.Region3Blocks
import proofs.«134528_j43946105373340_1_alg».proof.Proof.KernelRows
import proofs.«134528_j43946105373340_1_alg».proof.Proof.NodeArrays

set_option maxRecDepth 16384

noncomputable section

namespace Cert.KernelIdeal.Region3

open Cert.KernelIdeal Cert.KernelIdeal.Gen Cert.NodeRows
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's value on blocks whose rows are rows `row p` of two matrices `H`, `Nm`, with the parameter blocks the
    whole parameter arrays: entry `y` is the layer's entry at row `row (y 0)`. -/
theorem block_value (x0 x1 : Vec Ideal S5000x64 .f32) (x2 x3 : Vec Ideal S64x64 .f32) (x4 x5 x6 : Vec Ideal S1x64 .f32)
    (H Nm : S100000x64.Idx → EReal) (Ws Wn : S64x64.Idx → EReal) (B G Be : S1x64.Idx → EReal) (row : Fin 5000 → Fin 100000)
    (h0 : ∀ (p : Fin 5000) (k : Fin 64), x0 (ix2 p k) = H (ix2 (row p) k))
    (h1 : ∀ (p : Fin 5000) (k : Fin 64), x1 (ix2 p k) = Nm (ix2 (row p) k))
    (h2 : ∀ (p : Fin 64) (k : Fin 64), x2 (ix2 p k) = Ws (ix2 p k))
    (h3 : ∀ (p : Fin 64) (k : Fin 64), x3 (ix2 p k) = Wn (ix2 p k))
    (h4 : ∀ (p : Fin 1) (k : Fin 64), x4 (ix2 p k) = B (ix2 p k))
    (h5 : ∀ (p : Fin 1) (k : Fin 64), x5 (ix2 p k) = G (ix2 p k))
    (h6 : ∀ (p : Fin 1) (k : Fin 64), x6 (ix2 p k) = Be (ix2 p k))
    (p : Fin 5000) (q : Fin 64) :
    k3_pay1 (k3_pay2 x0) (k3_pay3 x0 x1 x2 x3 x4) x5 x6 (ix2 p q) = layerArr H Nm Ws Wn B G Be (ix2 (row p) q) := by
  rw [Cert.KernelRows.pay_layer3]
  rw [Cert.KernelRows.layer_entry, layerArr_apply]
  unfold layerAt
  simp only [h0, h1, h2, h3, h4, h5, h6]

/-- The body's value at point `t`, at an entry `y` of the block, is layerArr of the arrays as the region finds them,
    read where the output block puts `y`. -/
theorem point_value (c : Dev nD) (t : Fin cfg3.N) (y : S5000x64.Idx) :
    k3_pay1 (k3_pay2 (iblk3 V c 0 t)) (k3_pay3 (iblk3 V c 0 t) (iblk3 V c 1 t) (iblk3 V c 2 t) (iblk3 V c 3 t) (iblk3 V c 4 t)) (iblk3 V c 5 t) (iblk3 V c 6 t) y
      = layerArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (((cfg3.win 7).blk t).view.emb y) := by
  obtain ⟨p, q, rfl⟩ : ∃ (p : Fin 5000) (q : Fin 64), y = ix2 p q := ⟨y 0, y 1, eq_ix2 y⟩
  rw [out_emb]
  exact block_value (iblk3 V c 0 t) (iblk3 V c 1 t) (iblk3 V c 2 t) (iblk3 V c 3 t) (iblk3 V c 4 t) (iblk3 V c 5 t) (iblk3 V c 6 t)
    (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (rowOf t)
    (block0_entry V c t) (block1_entry V c t) (block2_entry V c t) (block3_entry V c t) (block4_entry V c t) (block5_entry V c t) (block6_entry V c t) p q

/-- WHAT POINT `t` WRITES BACK is block `t` of layerArr of the arrays as the region finds them. -/
theorem flushed_eq (c : Dev nD) (t : Fin cfg3.N) :
    (dat3 V c).flushed 7 t = ((cfg3.win 7).blk t).view.read (Elt Ideal)
      (layerArr (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 7).cut (grid3.coords t) ((dat3 V c).after 7 t) = _
  rw [after3_7]
  unfold out3_7
  rw [View.canon_unit_zero hz]
  simp only [View.ld_unit_zero (S := S5000x64) hz, View.ld_unit_zero (S := S64x64) hz, View.ld_unit_zero (S := S1x64) hz]
  funext y
  exact point_value V c t y

/-- THE OUTPUT ARRAY when the region is left: the layer applied to every row of the arrays as the region finds them. -/
theorem final (c : Dev nD) :
    (dat3 V c).arrAt 7 cfg3.N
      = layerArr (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (V c (Pipeline.arrRef spec3 6)) :=
  (dat3 V c).arrAt_eq_of_cover 7 _ (fun t _ => flushed_eq V c t) cover

end Cert.KernelIdeal.Region3

end
-- ==== Proof.Region2Blocks.lean ====
/-
  Region 2 of the idealized kernel (a network layer), block by block.

  The region visits 20 points; at point `t` the two feature matrices (own features and averaged neighbour features,
  100000 × 64) and the output are seen through blocks of 5000 rows, rows `5000·t … 5000·t + 4999`, while the two
  weight matrices and the three parameter rows are each one block, the whole array, at every point. This module reads
  each window's block at a point off the array as the region finds it, entry by entry, and shows that the output's
  twenty blocks tile the 100000 rows. Everything is stated for arbitrary contents `V` of the buffers at the region's
  entry.
-/
import proofs.«134528_j43946105373340_1_alg».proof.Proof.Gen.KernelIdeal.Frame
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The printed index maps, decided over the 20 points: the three row-blocked windows are at block `(t, 0)`, the
    five whole-array windows at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of the block at point `t`, as a row of the whole matrix. -/
def rowOf (t : Fin cfg2.N) (p : Fin 5000) : Fin 100000 :=
  ⟨5000 * t.val + p.val, by have ht := t.isLt; have hN : cfg2.N = 20 := N_2; have hp := p.isLt; omega⟩

theorem rowOf_val (t : Fin cfg2.N) (p : Fin 5000) : (rowOf t p).val = 5000 * t.val + p.val := rfl

/-- Window 0's block at point `t` is rows `5000·t … 5000·t + 4999` of its array. -/
theorem block0_entry (c : Dev nD) (t : Fin cfg2.N) (p : Fin 5000) (k : Fin 64) :
    iblk2 V c 0 t (ix2 p k) = V c (Pipeline.arrRef spec2 0) (ix2 (rowOf t p) k) := by
  obtain ⟨e00, e01, e10, e11, e20, e21, e30, e31, e40, e41, e50, e51, e60, e61, e70, e71⟩ := idx_facts t
  show V c (Pipeline.arrRef spec2 0) (((cfg2.win 0).blk t).view.emb (ix2 p k)) = _
  refine congrArg (V c (Pipeline.arrRef spec2 0)) ?_
  funext a; apply Fin.ext
  match a with
  | ⟨0, _⟩ => show win2_0.index t (0 : Fin 2) * 5000 + 1 * p.val = 5000 * t.val + p.val; omega
  | ⟨1, _⟩ => show win2_0.index t (1 : Fin 2) * 64 + 1 * k.val = k.val; omega

/-- Window 1's block at point `t` is rows `5000·t … 5000·t + 4999` of its array. -/
theorem block1_entry (c : Dev nD) (t : Fin cfg2.N) (p : Fin 5000) (k : Fin 64) :
    iblk2 V c 1 t (ix2 p k) = V c (Pipeline.arrRef spec2 1) (ix2 (rowOf t p) k) := by
  obtain ⟨e00, e01, e10, e11, e20, e21, e30, e31, e40, e41, e50, e51, e60, e61, e70, e71⟩ := idx_facts t
  show V c (Pipeline.arrRef spec2 1) (((cfg2.win 1).blk t).view.emb (ix2 p k)) = _
  refine congrArg (V c (Pipeline.arrRef spec2 1)) ?_
  funext a; apply Fin.ext
  match a with
  | ⟨0, _⟩ => show win2_1.index t (0 : Fin 2) * 5000 + 1 * p.val = 5000 * t.val + p.val; omega
  | ⟨1, _⟩ => show win2_1.index t (1 : Fin 2) * 64 + 1 * k.val = k.val; omega

/-- Window 2 has one block, its whole array, at every point. -/
theorem block2_entry (c : Dev nD) (t : Fin cfg2.N) (p : Fin 64) (k : Fin 64) :
    iblk2 V c 2 t (ix2 p k) = V c (Pipeline.arrRef spec2 2) (ix2 p k) := by
  obtain ⟨e00, e01, e10, e11, e20, e21, e30, e31, e40, e41, e50, e51, e60, e61, e70, e71⟩ := idx_facts t
  show V c (Pipeline.arrRef spec2 2) (((cfg2.win 2).blk t).view.emb (ix2 p k)) = _
  refine congrArg (V c (Pipeline.arrRef spec2 2)) ?_
  funext a; apply Fin.ext
  match a with
  | ⟨0, _⟩ => show win2_2.index t (0 : Fin 2) * 64 + 1 * p.val = p.val; omega
  | ⟨1, _⟩ => show win2_2.index t (1 : Fin 2) * 64 + 1 * k.val = k.val; omega

/-- Window 3 has one block, its whole array, at every point. -/
theorem block3_entry (c : Dev nD) (t : Fin cfg2.N) (p : Fin 64) (k : Fin 64) :
    iblk2 V c 3 t (ix2 p k) = V c (Pipeline.arrRef spec2 3) (ix2 p k) := by
  obtain ⟨e00, e01, e10, e11, e20, e21, e30, e31, e40, e41, e50, e51, e60, e61, e70, e71⟩ := idx_facts t
  show V c (Pipeline.arrRef spec2 3) (((cfg2.win 3).blk t).view.emb (ix2 p k)) = _
  refine congrArg (V c (Pipeline.arrRef spec2 3)) ?_
  funext a; apply Fin.ext
  match a with
  | ⟨0, _⟩ => show win2_3.index t (0 : Fin 2) * 64 + 1 * p.val = p.val; omega
  | ⟨1, _⟩ => show win2_3.index t (1 : Fin 2) * 64 + 1 * k.val = k.val; omega

/-- Window 4 has one block, its whole array, at every point. -/
theorem block4_entry (c : Dev nD) (t : Fin cfg2.N) (p : Fin 1) (k : Fin 64) :
    iblk2 V c 4 t (ix2 p k) = V c (Pipeline.arrRef spec2 4) (ix2 p k) := by
  obtain ⟨e00, e01, e10, e11, e20, e21, e30, e31, e40, e41, e50, e51, e60, e61, e70, e71⟩ := idx_facts t
  show V c (Pipeline.arrRef spec2 4) (((cfg2.win 4).blk t).view.emb (ix2 p k)) = _
  refine congrArg (V c (Pipeline.arrRef spec2 4)) ?_
  funext a; apply Fin.ext
  match a with
  | ⟨0, _⟩ => show win2_4.index t (0 : Fin 2) * 1 + 1 * p.val = p.val; omega
  | ⟨1, _⟩ => show win2_4.index t (1 : Fin 2) * 64 + 1 * k.val = k.val; omega

/-- Window 5 has one block, its whole array, at every point. -/
theorem block5_entry (c : Dev nD) (t : Fin cfg2.N) (p : Fin 1) (k : Fin 64) :
    iblk2 V c 5 t (ix2 p k) = V c (Pipeline.arrRef spec2 5) (ix2 p k) := by
  obtain ⟨e00, e01, e10, e11, e20, e21, e30, e31, e40, e41, e50, e51, e60, e61, e70, e71⟩ := idx_facts t
  show V c (Pipeline.arrRef spec2 5) (((cfg2.win 5).blk t).view.emb (ix2 p k)) = _
  refine congrArg (V c (Pipeline.arrRef spec2 5)) ?_
  funext a; apply Fin.ext
  match a with
  | ⟨0, _⟩ => show win2_5.index t (0 : Fin 2) * 1 + 1 * p.val = p.val; omega
  | ⟨1, _⟩ => show win2_5.index t (1 : Fin 2) * 64 + 1 * k.val = k.val; omega

/-- Window 6 has one block, its whole array, at every point. -/
theorem block6_entry (c : Dev nD) (t : Fin cfg2.N) (p : Fin 1) (k : Fin 64) :
    iblk2 V c 6 t (ix2 p k) = V c (Pipeline.arrRef spec2 6) (ix2 p k) := by
  obtain ⟨e00, e01, e10, e11, e20, e21, e30, e31, e40, e41, e50, e51, e60, e61, e70, e71⟩ := idx_facts t
  show V c (Pipeline.arrRef spec2 6) (((cfg2.win 6).blk t).view.emb (ix2 p k)) = _
  refine congrArg (V c (Pipeline.arrRef spec2 6)) ?_
  funext a; apply Fin.ext
  match a with
  | ⟨0, _⟩ => show win2_6.index t (0 : Fin 2) * 1 + 1 * p.val = p.val; omega
  | ⟨1, _⟩ => show win2_6.index t (1 : Fin 2) * 64 + 1 * k.val = k.val; omega

/-- The output block at point `t` sits at rows `5000·t …` of the output array. -/
theorem out_emb (t : Fin cfg2.N) (p : Fin 5000) (k : Fin 64) :
    ((cfg2.win 7).blk t).view.emb (ix2 p k) = ix2 (rowOf t p) k := by
  obtain ⟨e00, e01, e10, e11, e20, e21, e30, e31, e40, e41, e50, e51, e60, e61, e70, e71⟩ := idx_facts t
  funext a; apply Fin.ext
  match a with
  | ⟨0, _⟩ => show win2_7.index t (0 : Fin 2) * 5000 + 1 * p.val = 5000 * t.val + p.val; omega
  | ⟨1, _⟩ => show win2_7.index t (1 : Fin 2) * 64 + 1 * k.val = k.val; omega

/-- An index of the output array is in point `t`'s block iff each coordinate is in the block's range on its axis. -/
theorem mem_blk (t : Fin cfg2.N) (i : S100000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v65).slice (win2_7.rect t)).set ↔ _
  rw [View.set_slice_whole, Rect.mem_set_unit]
  exact Iff.rfl

/-- Every entry of the output array is in the block of the point that holds its row: point `row / 5000`. -/
theorem cover (i : S100000x64.Idx) :
    ∃ t : Fin cfg2.N, (cfg2.win 7).flush t = true ∧ i ∈ ((cfg2.win 7).blk t).view.set := by
  have hN : cfg2.N = 20 := N_2
  have hi0 : (i 0).val < 100000 := (i 0).isLt
  have hi1 : (i 1).val < 64 := (i 1).isLt
  let t : Fin cfg2.N := ⟨(i 0).val / 5000, by omega⟩
  have htv : t.val = (i 0).val / 5000 := rfl
  obtain ⟨e00, e01, e10, e11, e20, e21, e30, e31, e40, e41, e50, e51, e60, e61, e70, e71⟩ := idx_facts t
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 64 ≤ (i 1).val ∧ (i 1).val < win2_7.index t (1 : Fin 2) * 64 + 64; omega

end Cert.KernelIdeal.Region2

end
-- ==== Proof.Region2Value.lean ====
/-
  Region 2 of the idealized kernel (a network layer): its output array.

  At point `t` the body computes, from the blocks it is handed, the layer's row map on each of its 5000 rows; a block's
  row `p` is row `5000·t + p` of the feature matrices, and the weights and parameter rows are the whole arrays. So what
  point `t` writes back is block `t` of ONE matrix — the layer applied to every row of the arrays as the region finds
  them — and, the twenty blocks tiling the 100000 rows, that matrix is what the output array holds when the region is
  left. Stated for arbitrary contents `V` of the buffers at the region's entry.
-/
import proofs.«134528_j43946105373340_1_alg».proof.Proof.Region2Blocks
import proofs.«134528_j43946105373340_1_alg».proof.Proof.KernelRows
import proofs.«134528_j43946105373340_1_alg».proof.Proof.NodeArrays

set_option maxRecDepth 16384

noncomputable section

namespace Cert.KernelIdeal.Region2

open Cert.KernelIdeal Cert.KernelIdeal.Gen Cert.NodeRows
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's value on blocks whose rows are rows `row p` of two matrices `H`, `Nm`, with the parameter blocks the
    whole parameter arrays: entry `y` is the layer's entry at row `row (y 0)`. -/
theorem block_value (x0 x1 : Vec Ideal S5000x64 .f32) (x2 x3 : Vec Ideal S64x64 .f32) (x4 x5 x6 : Vec Ideal S1x64 .f32)
    (H Nm : S100000x64.Idx → EReal) (Ws Wn : S64x64.Idx → EReal) (B G Be : S1x64.Idx → EReal) (row : Fin 5000 → Fin 100000)
    (h0 : ∀ (p : Fin 5000) (k : Fin 64), x0 (ix2 p k) = H (ix2 (row p) k))
    (h1 : ∀ (p : Fin 5000) (k : Fin 64), x1 (ix2 p k) = Nm (ix2 (row p) k))
    (h2 : ∀ (p : Fin 64) (k : Fin 64), x2 (ix2 p k) = Ws (ix2 p k))
    (h3 : ∀ (p : Fin 64) (k : Fin 64), x3 (ix2 p k) = Wn (ix2 p k))
    (h4 : ∀ (p : Fin 1) (k : Fin 64), x4 (ix2 p k) = B (ix2 p k))
    (h5 : ∀ (p : Fin 1) (k : Fin 64), x5 (ix2 p k) = G (ix2 p k))
    (h6 : ∀ (p : Fin 1) (k : Fin 64), x6 (ix2 p k) = Be (ix2 p k))
    (p : Fin 5000) (q : Fin 64) :
    k2_pay1 (k2_pay2 x0) (k2_pay3 x0 x1 x2 x3 x4) x5 x6 (ix2 p q) = layerArr H Nm Ws Wn B G Be (ix2 (row p) q) := by
  rw [Cert.KernelRows.pay_layer2]
  rw [Cert.KernelRows.layer_entry, layerArr_apply]
  unfold layerAt
  simp only [h0, h1, h2, h3, h4, h5, h6]

/-- The body's value at point `t`, at an entry `y` of the block, is layerArr of the arrays as the region finds them,
    read where the output block puts `y`. -/
theorem point_value (c : Dev nD) (t : Fin cfg2.N) (y : S5000x64.Idx) :
    k2_pay1 (k2_pay2 (iblk2 V c 0 t)) (k2_pay3 (iblk2 V c 0 t) (iblk2 V c 1 t) (iblk2 V c 2 t) (iblk2 V c 3 t) (iblk2 V c 4 t)) (iblk2 V c 5 t) (iblk2 V c 6 t) y
      = layerArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (((cfg2.win 7).blk t).view.emb y) := by
  obtain ⟨p, q, rfl⟩ : ∃ (p : Fin 5000) (q : Fin 64), y = ix2 p q := ⟨y 0, y 1, eq_ix2 y⟩
  rw [out_emb]
  exact block_value (iblk2 V c 0 t) (iblk2 V c 1 t) (iblk2 V c 2 t) (iblk2 V c 3 t) (iblk2 V c 4 t) (iblk2 V c 5 t) (iblk2 V c 6 t)
    (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (rowOf t)
    (block0_entry V c t) (block1_entry V c t) (block2_entry V c t) (block3_entry V c t) (block4_entry V c t) (block5_entry V c t) (block6_entry V c t) p q

/-- WHAT POINT `t` WRITES BACK is block `t` of layerArr of the arrays as the region finds them. -/
theorem flushed_eq (c : Dev nD) (t : Fin cfg2.N) :
    (dat2 V c).flushed 7 t = ((cfg2.win 7).blk t).view.read (Elt Ideal)
      (layerArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  show (cfg2.win 7).cut (grid2.coords t) ((dat2 V c).after 7 t) = _
  rw [after2_7]
  unfold out2_7
  rw [View.canon_unit_zero hz]
  simp only [View.ld_unit_zero (S := S5000x64) hz, View.ld_unit_zero (S := S64x64) hz, View.ld_unit_zero (S := S1x64) hz]
  funext y
  exact point_value V c t y

/-- THE OUTPUT ARRAY when the region is left: the layer applied to every row of the arrays as the region finds them. -/
theorem final (c : Dev nD) :
    (dat2 V c).arrAt 7 cfg2.N
      = layerArr (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6)) :=
  (dat2 V c).arrAt_eq_of_cover 7 _ (fun t _ => flushed_eq V c t) cover

end Cert.KernelIdeal.Region2

end
-- ==== Proof.Region1Blocks.lean ====
/-
  Region 1 of the idealized kernel (a network layer), block by block.

  The region visits 20 points; at point `t` the two feature matrices (own features and averaged neighbour features,
  100000 × 64) and the output are seen through blocks of 5000 rows, rows `5000·t … 5000·t + 4999`, while the two
  weight matrices and the three parameter rows are each one block, the whole array, at every point. This module reads
  each window's block at a point off the array as the region finds it, entry by entry, and shows that the output's
  twenty blocks tile the 100000 rows. Everything is stated for arbitrary contents `V` of the buffers at the region's
  entry.
-/
import proofs.«134528_j43946105373340_1_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The printed index maps, decided over the 20 points: the three row-blocked windows are at block `(t, 0)`, the
    five whole-array windows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of the block at point `t`, as a row of the whole matrix. -/
def rowOf (t : Fin cfg1.N) (p : Fin 5000) : Fin 100000 :=
  ⟨5000 * t.val + p.val, by have ht := t.isLt; have hN : cfg1.N = 20 := N_1; have hp := p.isLt; omega⟩

theorem rowOf_val (t : Fin cfg1.N) (p : Fin 5000) : (rowOf t p).val = 5000 * t.val + p.val := rfl

/-- Window 0's block at point `t` is rows `5000·t … 5000·t + 4999` of its array. -/
theorem block0_entry (c : Dev nD) (t : Fin cfg1.N) (p : Fin 5000) (k : Fin 64) :
    iblk1 V c 0 t (ix2 p k) = V c (Pipeline.arrRef spec1 0) (ix2 (rowOf t p) k) := by
  obtain ⟨e00, e01, e10, e11, e20, e21, e30, e31, e40, e41, e50, e51, e60, e61, e70, e71⟩ := idx_facts t
  show V c (Pipeline.arrRef spec1 0) (((cfg1.win 0).blk t).view.emb (ix2 p k)) = _
  refine congrArg (V c (Pipeline.arrRef spec1 0)) ?_
  funext a; apply Fin.ext
  match a with
  | ⟨0, _⟩ => show win1_0.index t (0 : Fin 2) * 5000 + 1 * p.val = 5000 * t.val + p.val; omega
  | ⟨1, _⟩ => show win1_0.index t (1 : Fin 2) * 64 + 1 * k.val = k.val; omega

/-- Window 1's block at point `t` is rows `5000·t … 5000·t + 4999` of its array. -/
theorem block1_entry (c : Dev nD) (t : Fin cfg1.N) (p : Fin 5000) (k : Fin 64) :
    iblk1 V c 1 t (ix2 p k) = V c (Pipeline.arrRef spec1 1) (ix2 (rowOf t p) k) := by
  obtain ⟨e00, e01, e10, e11, e20, e21, e30, e31, e40, e41, e50, e51, e60, e61, e70, e71⟩ := idx_facts t
  show V c (Pipeline.arrRef spec1 1) (((cfg1.win 1).blk t).view.emb (ix2 p k)) = _
  refine congrArg (V c (Pipeline.arrRef spec1 1)) ?_
  funext a; apply Fin.ext
  match a with
  | ⟨0, _⟩ => show win1_1.index t (0 : Fin 2) * 5000 + 1 * p.val = 5000 * t.val + p.val; omega
  | ⟨1, _⟩ => show win1_1.index t (1 : Fin 2) * 64 + 1 * k.val = k.val; omega

/-- Window 2 has one block, its whole array, at every point. -/
theorem block2_entry (c : Dev nD) (t : Fin cfg1.N) (p : Fin 64) (k : Fin 64) :
    iblk1 V c 2 t (ix2 p k) = V c (Pipeline.arrRef spec1 2) (ix2 p k) := by
  obtain ⟨e00, e01, e10, e11, e20, e21, e30, e31, e40, e41, e50, e51, e60, e61, e70, e71⟩ := idx_facts t
  show V c (Pipeline.arrRef spec1 2) (((cfg1.win 2).blk t).view.emb (ix2 p k)) = _
  refine congrArg (V c (Pipeline.arrRef spec1 2)) ?_
  funext a; apply Fin.ext
  match a with
  | ⟨0, _⟩ => show win1_2.index t (0 : Fin 2) * 64 + 1 * p.val = p.val; omega
  | ⟨1, _⟩ => show win1_2.index t (1 : Fin 2) * 64 + 1 * k.val = k.val; omega

/-- Window 3 has one block, its whole array, at every point. -/
theorem block3_entry (c : Dev nD) (t : Fin cfg1.N) (p : Fin 64) (k : Fin 64) :
    iblk1 V c 3 t (ix2 p k) = V c (Pipeline.arrRef spec1 3) (ix2 p k) := by
  obtain ⟨e00, e01, e10, e11, e20, e21, e30, e31, e40, e41, e50, e51, e60, e61, e70, e71⟩ := idx_facts t
  show V c (Pipeline.arrRef spec1 3) (((cfg1.win 3).blk t).view.emb (ix2 p k)) = _
  refine congrArg (V c (Pipeline.arrRef spec1 3)) ?_
  funext a; apply Fin.ext
  match a with
  | ⟨0, _⟩ => show win1_3.index t (0 : Fin 2) * 64 + 1 * p.val = p.val; omega
  | ⟨1, _⟩ => show win1_3.index t (1 : Fin 2) * 64 + 1 * k.val = k.val; omega

/-- Window 4 has one block, its whole array, at every point. -/
theorem block4_entry (c : Dev nD) (t : Fin cfg1.N) (p : Fin 1) (k : Fin 64) :
    iblk1 V c 4 t (ix2 p k) = V c (Pipeline.arrRef spec1 4) (ix2 p k) := by
  obtain ⟨e00, e01, e10, e11, e20, e21, e30, e31, e40, e41, e50, e51, e60, e61, e70, e71⟩ := idx_facts t
  show V c (Pipeline.arrRef spec1 4) (((cfg1.win 4).blk t).view.emb (ix2 p k)) = _
  refine congrArg (V c (Pipeline.arrRef spec1 4)) ?_
  funext a; apply Fin.ext
  match a with
  | ⟨0, _⟩ => show win1_4.index t (0 : Fin 2) * 1 + 1 * p.val = p.val; omega
  | ⟨1, _⟩ => show win1_4.index t (1 : Fin 2) * 64 + 1 * k.val = k.val; omega

/-- Window 5 has one block, its whole array, at every point. -/
theorem block5_entry (c : Dev nD) (t : Fin cfg1.N) (p : Fin 1) (k : Fin 64) :
    iblk1 V c 5 t (ix2 p k) = V c (Pipeline.arrRef spec1 5) (ix2 p k) := by
  obtain ⟨e00, e01, e10, e11, e20, e21, e30, e31, e40, e41, e50, e51, e60, e61, e70, e71⟩ := idx_facts t
  show V c (Pipeline.arrRef spec1 5) (((cfg1.win 5).blk t).view.emb (ix2 p k)) = _
  refine congrArg (V c (Pipeline.arrRef spec1 5)) ?_
  funext a; apply Fin.ext
  match a with
  | ⟨0, _⟩ => show win1_5.index t (0 : Fin 2) * 1 + 1 * p.val = p.val; omega
  | ⟨1, _⟩ => show win1_5.index t (1 : Fin 2) * 64 + 1 * k.val = k.val; omega

/-- Window 6 has one block, its whole array, at every point. -/
theorem block6_entry (c : Dev nD) (t : Fin cfg1.N) (p : Fin 1) (k : Fin 64) :
    iblk1 V c 6 t (ix2 p k) = V c (Pipeline.arrRef spec1 6) (ix2 p k) := by
  obtain ⟨e00, e01, e10, e11, e20, e21, e30, e31, e40, e41, e50, e51, e60, e61, e70, e71⟩ := idx_facts t
  show V c (Pipeline.arrRef spec1 6) (((cfg1.win 6).blk t).view.emb (ix2 p k)) = _
  refine congrArg (V c (Pipeline.arrRef spec1 6)) ?_
  funext a; apply Fin.ext
  match a with
  | ⟨0, _⟩ => show win1_6.index t (0 : Fin 2) * 1 + 1 * p.val = p.val; omega
  | ⟨1, _⟩ => show win1_6.index t (1 : Fin 2) * 64 + 1 * k.val = k.val; omega

/-- The output block at point `t` sits at rows `5000·t …` of the output array. -/
theorem out_emb (t : Fin cfg1.N) (p : Fin 5000) (k : Fin 64) :
    ((cfg1.win 7).blk t).view.emb (ix2 p k) = ix2 (rowOf t p) k := by
  obtain ⟨e00, e01, e10, e11, e20, e21, e30, e31, e40, e41, e50, e51, e60, e61, e70, e71⟩ := idx_facts t
  funext a; apply Fin.ext
  match a with
  | ⟨0, _⟩ => show win1_7.index t (0 : Fin 2) * 5000 + 1 * p.val = 5000 * t.val + p.val; omega
  | ⟨1, _⟩ => show win1_7.index t (1 : Fin 2) * 64 + 1 * k.val = k.val; omega

/-- An index of the output array is in point `t`'s block iff each coordinate is in the block's range on its axis. -/
theorem mem_blk (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v39).slice (win1_7.rect t)).set ↔ _
  rw [View.set_slice_whole, Rect.mem_set_unit]
  exact Iff.rfl

/-- Every entry of the output array is in the block of the point that holds its row: point `row / 5000`. -/
theorem cover (i : S100000x64.Idx) :
    ∃ t : Fin cfg1.N, (cfg1.win 7).flush t = true ∧ i ∈ ((cfg1.win 7).blk t).view.set := by
  have hN : cfg1.N = 20 := N_1
  have hi0 : (i 0).val < 100000 := (i 0).isLt
  have hi1 : (i 1).val < 64 := (i 1).isLt
  let t : Fin cfg1.N := ⟨(i 0).val / 5000, by omega⟩
  have htv : t.val = (i 0).val / 5000 := rfl
  obtain ⟨e00, e01, e10, e11, e20, e21, e30, e31, e40, e41, e50, e51, e60, e61, e70, e71⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

end Cert.KernelIdeal.Region1

end
-- ==== Proof.Region1Value.lean ====
/-
  Region 1 of the idealized kernel (a network layer): its output array.

  At point `t` the body computes, from the blocks it is handed, the layer's row map on each of its 5000 rows; a block's
  row `p` is row `5000·t + p` of the feature matrices, and the weights and parameter rows are the whole arrays. So what
  point `t` writes back is block `t` of ONE matrix — the layer applied to every row of the arrays as the region finds
  them — and, the twenty blocks tiling the 100000 rows, that matrix is what the output array holds when the region is
  left. Stated for arbitrary contents `V` of the buffers at the region's entry.
-/
import proofs.«134528_j43946105373340_1_alg».proof.Proof.Region1Blocks
import proofs.«134528_j43946105373340_1_alg».proof.Proof.KernelRows
import proofs.«134528_j43946105373340_1_alg».proof.Proof.NodeArrays

set_option maxRecDepth 16384

noncomputable section

namespace Cert.KernelIdeal.Region1

open Cert.KernelIdeal Cert.KernelIdeal.Gen Cert.NodeRows
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's value on blocks whose rows are rows `row p` of two matrices `H`, `Nm`, with the parameter blocks the
    whole parameter arrays: entry `y` is the layer's entry at row `row (y 0)`. -/
theorem block_value (x0 x1 : Vec Ideal S5000x64 .f32) (x2 x3 : Vec Ideal S64x64 .f32) (x4 x5 x6 : Vec Ideal S1x64 .f32)
    (H Nm : S100000x64.Idx → EReal) (Ws Wn : S64x64.Idx → EReal) (B G Be : S1x64.Idx → EReal) (row : Fin 5000 → Fin 100000)
    (h0 : ∀ (p : Fin 5000) (k : Fin 64), x0 (ix2 p k) = H (ix2 (row p) k))
    (h1 : ∀ (p : Fin 5000) (k : Fin 64), x1 (ix2 p k) = Nm (ix2 (row p) k))
    (h2 : ∀ (p : Fin 64) (k : Fin 64), x2 (ix2 p k) = Ws (ix2 p k))
    (h3 : ∀ (p : Fin 64) (k : Fin 64), x3 (ix2 p k) = Wn (ix2 p k))
    (h4 : ∀ (p : Fin 1) (k : Fin 64), x4 (ix2 p k) = B (ix2 p k))
    (h5 : ∀ (p : Fin 1) (k : Fin 64), x5 (ix2 p k) = G (ix2 p k))
    (h6 : ∀ (p : Fin 1) (k : Fin 64), x6 (ix2 p k) = Be (ix2 p k))
    (p : Fin 5000) (q : Fin 64) :
    k1_pay1 (k1_pay2 x0) (k1_pay3 x0 x1 x2 x3 x4) x5 x6 (ix2 p q) = layerArr H Nm Ws Wn B G Be (ix2 (row p) q) := by
  rw [Cert.KernelRows.layer_entry, layerArr_apply]
  unfold layerAt
  simp only [h0, h1, h2, h3, h4, h5, h6]

/-- The body's value at point `t`, at an entry `y` of the block, is layerArr of the arrays as the region finds them,
    read where the output block puts `y`. -/
theorem point_value (c : Dev nD) (t : Fin cfg1.N) (y : S5000x64.Idx) :
    k1_pay1 (k1_pay2 (iblk1 V c 0 t)) (k1_pay3 (iblk1 V c 0 t) (iblk1 V c 1 t) (iblk1 V c 2 t) (iblk1 V c 3 t) (iblk1 V c 4 t)) (iblk1 V c 5 t) (iblk1 V c 6 t) y
      = layerArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (((cfg1.win 7).blk t).view.emb y) := by
  obtain ⟨p, q, rfl⟩ : ∃ (p : Fin 5000) (q : Fin 64), y = ix2 p q := ⟨y 0, y 1, eq_ix2 y⟩
  rw [out_emb]
  exact block_value (iblk1 V c 0 t) (iblk1 V c 1 t) (iblk1 V c 2 t) (iblk1 V c 3 t) (iblk1 V c 4 t) (iblk1 V c 5 t) (iblk1 V c 6 t)
    (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (rowOf t)
    (block0_entry V c t) (block1_entry V c t) (block2_entry V c t) (block3_entry V c t) (block4_entry V c t) (block5_entry V c t) (block6_entry V c t) p q

/-- WHAT POINT `t` WRITES BACK is block `t` of layerArr of the arrays as the region finds them. -/
theorem flushed_eq (c : Dev nD) (t : Fin cfg1.N) :
    (dat1 V c).flushed 7 t = ((cfg1.win 7).blk t).view.read (Elt Ideal)
      (layerArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz]
  funext y
  exact point_value V c t y

/-- THE OUTPUT ARRAY when the region is left: the layer applied to every row of the arrays as the region finds them. -/
theorem final (c : Dev nD) :
    (dat1 V c).arrAt 7 cfg1.N
      = layerArr (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (V c (Pipeline.arrRef spec1 6)) :=
  (dat1 V c).arrAt_eq_of_cover 7 _ (fun t _ => flushed_eq V c t) cover

end Cert.KernelIdeal.Region1

end
-- ==== Proof.Region0Blocks.lean ====
/-
  Region 0 of the idealized kernel (the input projection), block by block.

  The region visits 20 points; at point `t` the input matrix (100000 × 8) and the output (100000 × 64) are seen through
  blocks of 5000 rows, rows `5000·t … 5000·t + 4999`, while the weight matrix (64 × 8) and the bias row (1 × 64) are each
  one block, the whole array, at every point. This module reads each window's block at a point off the array as the
  region finds it, entry by entry, and shows that the output's twenty blocks tile the 100000 rows. Everything is stated
  for arbitrary contents `V` of the buffers at the region's entry.
-/
import proofs.«134528_j43946105373340_1_alg».proof.Proof.Gen.KernelIdeal.Frame
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The printed index maps, decided over the 20 points: the two row-blocked windows are at block `(t, 0)`, the two
    whole-array windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block at point `t`, as a row of the whole matrix. -/
def rowOf (t : Fin cfg0.N) (p : Fin 5000) : Fin 100000 :=
  ⟨5000 * t.val + p.val, by have ht := t.isLt; have hN : cfg0.N = 20 := N_0; have hp := p.isLt; omega⟩

/-- Window 0's block at point `t` is rows `5000·t … 5000·t + 4999` of the input matrix. -/
theorem block0_entry (c : Dev nD) (t : Fin cfg0.N) (p : Fin 5000) (k : Fin 8) :
    iblk0 V c 0 t (ix2 p k) = V c (Pipeline.arrRef spec0 0) (ix2 (rowOf t p) k) := by
  obtain ⟨e00, e01, e10, e11, e20, e21, e30, e31⟩ := idx_facts t
  show V c (Pipeline.arrRef spec0 0) (((cfg0.win 0).blk t).view.emb (ix2 p k)) = _
  refine congrArg (V c (Pipeline.arrRef spec0 0)) ?_
  funext a; apply Fin.ext
  match a with
  | ⟨0, _⟩ => show win0_0.index t (0 : Fin 2) * 5000 + 1 * p.val = 5000 * t.val + p.val; omega
  | ⟨1, _⟩ => show win0_0.index t (1 : Fin 2) * 8 + 1 * k.val = k.val; omega

/-- Window 1 has one block, the whole weight matrix, at every point. -/
theorem block1_entry (c : Dev nD) (t : Fin cfg0.N) (p : Fin 64) (k : Fin 8) :
    iblk0 V c 1 t (ix2 p k) = V c (Pipeline.arrRef spec0 1) (ix2 p k) := by
  obtain ⟨e00, e01, e10, e11, e20, e21, e30, e31⟩ := idx_facts t
  show V c (Pipeline.arrRef spec0 1) (((cfg0.win 1).blk t).view.emb (ix2 p k)) = _
  refine congrArg (V c (Pipeline.arrRef spec0 1)) ?_
  funext a; apply Fin.ext
  match a with
  | ⟨0, _⟩ => show win0_1.index t (0 : Fin 2) * 64 + 1 * p.val = p.val; omega
  | ⟨1, _⟩ => show win0_1.index t (1 : Fin 2) * 8 + 1 * k.val = k.val; omega

/-- Window 2 has one block, the whole bias row, at every point. -/
theorem block2_entry (c : Dev nD) (t : Fin cfg0.N) (p : Fin 1) (k : Fin 64) :
    iblk0 V c 2 t (ix2 p k) = V c (Pipeline.arrRef spec0 2) (ix2 p k) := by
  obtain ⟨e00, e01, e10, e11, e20, e21, e30, e31⟩ := idx_facts t
  show V c (Pipeline.arrRef spec0 2) (((cfg0.win 2).blk t).view.emb (ix2 p k)) = _
  refine congrArg (V c (Pipeline.arrRef spec0 2)) ?_
  funext a; apply Fin.ext
  match a with
  | ⟨0, _⟩ => show win0_2.index t (0 : Fin 2) * 1 + 1 * p.val = p.val; omega
  | ⟨1, _⟩ => show win0_2.index t (1 : Fin 2) * 64 + 1 * k.val = k.val; omega

/-- The output block at point `t` sits at rows `5000·t …` of the output array. -/
theorem out_emb (t : Fin cfg0.N) (p : Fin 5000) (k : Fin 64) :
    ((cfg0.win 3).blk t).view.emb (ix2 p k) = ix2 (rowOf t p) k := by
  obtain ⟨e00, e01, e10, e11, e20, e21, e30, e31⟩ := idx_facts t
  funext a; apply Fin.ext
  match a with
  | ⟨0, _⟩ => show win0_3.index t (0 : Fin 2) * 5000 + 1 * p.val = 5000 * t.val + p.val; omega
  | ⟨1, _⟩ => show win0_3.index t (1 : Fin 2) * 64 + 1 * k.val = k.val; omega

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v13).slice (win0_3.rect t)).set ↔ _
  rw [View.set_slice_whole, Rect.mem_set_unit]
  exact Iff.rfl

/-- Every entry of the output array is in the block of the point that holds its row: point `row / 5000`. -/
theorem cover (i : S100000x64.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 64 := (i 1).isLt
  let t : Fin cfg0.N := ⟨(i 0).val / 5000, by omega⟩
  have htv : t.val = (i 0).val / 5000 := rfl
  obtain ⟨e00, e01, e10, e11, e20, e21, e30, e31⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

end Cert.KernelIdeal.Region0

end
-- ==== Proof.Region0Value.lean ====
/-
  Region 0 of the idealized kernel (the input projection): its output array.

  At point `t` the body computes, from the blocks it is handed, the projection's row map on each of its 5000 rows; a
  block's row `p` is row `5000·t + p` of the input matrix, and the weight matrix and bias row are the whole arrays. So
  what point `t` writes back is block `t` of ONE matrix — the projection applied to every row of the arrays as the
  region finds them — and, the twenty blocks tiling the 100000 rows, that matrix is what the output array holds when the
  region is left. Stated for arbitrary contents `V` of the buffers at the region's entry.
-/
import proofs.«134528_j43946105373340_1_alg».proof.Proof.Region0Blocks
import proofs.«134528_j43946105373340_1_alg».proof.Proof.KernelRows
import proofs.«134528_j43946105373340_1_alg».proof.Proof.NodeArrays

set_option maxRecDepth 16384

noncomputable section

namespace Cert.KernelIdeal.Region0

open Cert.KernelIdeal Cert.KernelIdeal.Gen Cert.NodeRows
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's value on a block whose rows are rows `row p` of a matrix `X`, with the parameter blocks the whole
    parameter arrays: entry `(p, q)` is the projection's entry at row `row p`. -/
theorem block_value (x0 : Vec Ideal S5000x8 .f32) (x1 : Vec Ideal S64x8 .f32) (x2 : Vec Ideal S1x64 .f32)
    (X : S100000x8.Idx → EReal) (W : S64x8.Idx → EReal) (B : S1x64.Idx → EReal) (row : Fin 5000 → Fin 100000)
    (h0 : ∀ (p : Fin 5000) (k : Fin 8), x0 (ix2 p k) = X (ix2 (row p) k))
    (h1 : ∀ (p : Fin 64) (k : Fin 8), x1 (ix2 p k) = W (ix2 p k))
    (h2 : ∀ (p : Fin 1) (k : Fin 64), x2 (ix2 p k) = B (ix2 p k))
    (p : Fin 5000) (q : Fin 64) :
    k0_pay1 x0 x1 x2 (ix2 p q) = projArr X W B (ix2 (row p) q) := by
  rw [Cert.KernelRows.proj_entry, projArr_apply]
  unfold projAt
  simp only [h0, h1, h2]

/-- The body's value at point `t`, at an entry `y` of the block, is projArr of the arrays as the region finds them,
    read where the output block puts `y`. -/
theorem point_value (c : Dev nD) (t : Fin cfg0.N) (y : S5000x64.Idx) :
    k0_pay1 (iblk0 V c 0 t) (iblk0 V c 1 t) (iblk0 V c 2 t) y
      = projArr (V c (Pipeline.arrRef spec0 0)) (V c (Pipeline.arrRef spec0 1)) (V c (Pipeline.arrRef spec0 2)) (((cfg0.win 3).blk t).view.emb y) := by
  obtain ⟨p, q, rfl⟩ : ∃ (p : Fin 5000) (q : Fin 64), y = ix2 p q := ⟨y 0, y 1, eq_ix2 y⟩
  rw [out_emb]
  exact block_value (iblk0 V c 0 t) (iblk0 V c 1 t) (iblk0 V c 2 t)
    (V c (Pipeline.arrRef spec0 0)) (V c (Pipeline.arrRef spec0 1)) (V c (Pipeline.arrRef spec0 2)) (rowOf t)
    (block0_entry V c t) (block1_entry V c t) (block2_entry V c t) p q

/-- WHAT POINT `t` WRITES BACK is block `t` of projArr of the arrays as the region finds them. -/
theorem flushed_eq (c : Dev nD) (t : Fin cfg0.N) :
    (dat0 V c).flushed 3 t = ((cfg0.win 3).blk t).view.read (Elt Ideal)
      (projArr (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x8) hz, View.ld_unit_zero (S := S64x8) hz, View.ld_unit_zero (S := S1x64) hz]
  funext y
  exact point_value V c t y

/-- THE OUTPUT ARRAY when the region is left: the projection applied to every row of the arrays as the region finds
    them. -/
theorem final (c : Dev nD) :
    (dat0 V c).arrAt 3 cfg0.N
      = projArr (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.Region0

end
-- ==== Proof.Carry.lean ====
/-
  What the host stretches leave alone.

  Between the regions the program runs stretches of host operations. Each operation writes its own result buffer and
  nothing else, so a buffer that no operation of a stretch writes holds after the stretch what it held before; and a
  region changes only the arrays of its own windows. The buffers followed here are the ten arguments and the column of
  reciprocal in-degrees (computed once, before the first region, and read by every later stretch): each is traced from
  the launch memory to every boundary at which a later stretch or region reads it.
-/
import proofs.«134528_j43946105373340_1_alg».proof.Proof.Gen.KernelIdeal.Frame
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.SL.Sem Idealize.ShloMosaic.StableHlo

variable {F : FTy → Type} [FloatOps F]

section Stretches
variable (W : Valuation τ sig (Elt F))

theorem s00_main_arg0 : StableHlo.after (hostOps0 (F := F)) W (Proc.devRef .tc main_arg0) = W (Proc.devRef .tc main_arg0) := by
  after_results
theorem s01_main_arg0 : StableHlo.after (hostOps0_1 (F := F)) W (Proc.devRef .tc main_arg0) = W (Proc.devRef .tc main_arg0) := by
  after_results
theorem s02_main_arg0 : StableHlo.after (hostOps0_2 (F := F)) W (Proc.devRef .tc main_arg0) = W (Proc.devRef .tc main_arg0) := by
  after_results
theorem s00_main_arg1 : StableHlo.after (hostOps0 (F := F)) W (Proc.devRef .tc main_arg1) = W (Proc.devRef .tc main_arg1) := by
  after_results
theorem s01_main_arg1 : StableHlo.after (hostOps0_1 (F := F)) W (Proc.devRef .tc main_arg1) = W (Proc.devRef .tc main_arg1) := by
  after_results
theorem s02_main_arg1 : StableHlo.after (hostOps0_2 (F := F)) W (Proc.devRef .tc main_arg1) = W (Proc.devRef .tc main_arg1) := by
  after_results
theorem s00_main_arg2 : StableHlo.after (hostOps0 (F := F)) W (Proc.devRef .tc main_arg2) = W (Proc.devRef .tc main_arg2) := by
  after_results
theorem s01_main_arg2 : StableHlo.after (hostOps0_1 (F := F)) W (Proc.devRef .tc main_arg2) = W (Proc.devRef .tc main_arg2) := by
  after_results
theorem s02_main_arg2 : StableHlo.after (hostOps0_2 (F := F)) W (Proc.devRef .tc main_arg2) = W (Proc.devRef .tc main_arg2) := by
  after_results
theorem s00_main_arg3 : StableHlo.after (hostOps0 (F := F)) W (Proc.devRef .tc main_arg3) = W (Proc.devRef .tc main_arg3) := by
  after_results
theorem s01_main_arg3 : StableHlo.after (hostOps0_1 (F := F)) W (Proc.devRef .tc main_arg3) = W (Proc.devRef .tc main_arg3) := by
  after_results
theorem s02_main_arg3 : StableHlo.after (hostOps0_2 (F := F)) W (Proc.devRef .tc main_arg3) = W (Proc.devRef .tc main_arg3) := by
  after_results
theorem s00_main_arg4 : StableHlo.after (hostOps0 (F := F)) W (Proc.devRef .tc main_arg4) = W (Proc.devRef .tc main_arg4) := by
  after_results
theorem s01_main_arg4 : StableHlo.after (hostOps0_1 (F := F)) W (Proc.devRef .tc main_arg4) = W (Proc.devRef .tc main_arg4) := by
  after_results
theorem s00_main_arg5 : StableHlo.after (hostOps0 (F := F)) W (Proc.devRef .tc main_arg5) = W (Proc.devRef .tc main_arg5) := by
  after_results
theorem s01_main_arg5 : StableHlo.after (hostOps0_1 (F := F)) W (Proc.devRef .tc main_arg5) = W (Proc.devRef .tc main_arg5) := by
  after_results
theorem s02_main_arg5 : StableHlo.after (hostOps0_2 (F := F)) W (Proc.devRef .tc main_arg5) = W (Proc.devRef .tc main_arg5) := by
  after_results
theorem s00_main_arg6 : StableHlo.after (hostOps0 (F := F)) W (Proc.devRef .tc main_arg6) = W (Proc.devRef .tc main_arg6) := by
  after_results
theorem s01_main_arg6 : StableHlo.after (hostOps0_1 (F := F)) W (Proc.devRef .tc main_arg6) = W (Proc.devRef .tc main_arg6) := by
  after_results
theorem s02_main_arg6 : StableHlo.after (hostOps0_2 (F := F)) W (Proc.devRef .tc main_arg6) = W (Proc.devRef .tc main_arg6) := by
  after_results
theorem s00_main_arg7 : StableHlo.after (hostOps0 (F := F)) W (Proc.devRef .tc main_arg7) = W (Proc.devRef .tc main_arg7) := by
  after_results
theorem s01_main_arg7 : StableHlo.after (hostOps0_1 (F := F)) W (Proc.devRef .tc main_arg7) = W (Proc.devRef .tc main_arg7) := by
  after_results
theorem s02_main_arg7 : StableHlo.after (hostOps0_2 (F := F)) W (Proc.devRef .tc main_arg7) = W (Proc.devRef .tc main_arg7) := by
  after_results
theorem s00_main_arg8 : StableHlo.after (hostOps0 (F := F)) W (Proc.devRef .tc main_arg8) = W (Proc.devRef .tc main_arg8) := by
  after_results
theorem s01_main_arg8 : StableHlo.after (hostOps0_1 (F := F)) W (Proc.devRef .tc main_arg8) = W (Proc.devRef .tc main_arg8) := by
  after_results
theorem s02_main_arg8 : StableHlo.after (hostOps0_2 (F := F)) W (Proc.devRef .tc main_arg8) = W (Proc.devRef .tc main_arg8) := by
  after_results
theorem s00_main_arg9 : StableHlo.after (hostOps0 (F := F)) W (Proc.devRef .tc main_arg9) = W (Proc.devRef .tc main_arg9) := by
  after_results
theorem s01_main_arg9 : StableHlo.after (hostOps0_1 (F := F)) W (Proc.devRef .tc main_arg9) = W (Proc.devRef .tc main_arg9) := by
  after_results
theorem s02_main_arg9 : StableHlo.after (hostOps0_2 (F := F)) W (Proc.devRef .tc main_arg9) = W (Proc.devRef .tc main_arg9) := by
  after_results
theorem s02_main_arg4 : StableHlo.after (hostOps0_2 (F := F)) W (Proc.devRef .tc main_arg4) = W (Proc.devRef .tc main_arg4) := by
  after_results
theorem s1_main_arg1 : StableHlo.after (hostOps1 (F := F)) W (Proc.devRef .tc main_arg1) = W (Proc.devRef .tc main_arg1) := by
  after_results
theorem s1_main_arg2 : StableHlo.after (hostOps1 (F := F)) W (Proc.devRef .tc main_arg2) = W (Proc.devRef .tc main_arg2) := by
  after_results
theorem s1_main_arg5 : StableHlo.after (hostOps1 (F := F)) W (Proc.devRef .tc main_arg5) = W (Proc.devRef .tc main_arg5) := by
  after_results
theorem s1_main_arg6 : StableHlo.after (hostOps1 (F := F)) W (Proc.devRef .tc main_arg6) = W (Proc.devRef .tc main_arg6) := by
  after_results
theorem s1_main_arg7 : StableHlo.after (hostOps1 (F := F)) W (Proc.devRef .tc main_arg7) = W (Proc.devRef .tc main_arg7) := by
  after_results
theorem s1_main_arg8 : StableHlo.after (hostOps1 (F := F)) W (Proc.devRef .tc main_arg8) = W (Proc.devRef .tc main_arg8) := by
  after_results
theorem s1_main_arg9 : StableHlo.after (hostOps1 (F := F)) W (Proc.devRef .tc main_arg9) = W (Proc.devRef .tc main_arg9) := by
  after_results
theorem s1_main_v11 : StableHlo.after (hostOps1 (F := F)) W (Proc.devRef .tc main_v11) = W (Proc.devRef .tc main_v11) := by
  after_results
theorem s1_main_v13 : StableHlo.after (hostOps1 (F := F)) W (Proc.devRef .tc main_v13) = W (Proc.devRef .tc main_v13) := by
  after_results
theorem s2_main_arg1 : StableHlo.after (hostOps2 (F := F)) W (Proc.devRef .tc main_arg1) = W (Proc.devRef .tc main_arg1) := by
  after_results
theorem s2_main_arg2 : StableHlo.after (hostOps2 (F := F)) W (Proc.devRef .tc main_arg2) = W (Proc.devRef .tc main_arg2) := by
  after_results
theorem s2_main_arg5 : StableHlo.after (hostOps2 (F := F)) W (Proc.devRef .tc main_arg5) = W (Proc.devRef .tc main_arg5) := by
  after_results
theorem s2_main_arg6 : StableHlo.after (hostOps2 (F := F)) W (Proc.devRef .tc main_arg6) = W (Proc.devRef .tc main_arg6) := by
  after_results
theorem s2_main_arg7 : StableHlo.after (hostOps2 (F := F)) W (Proc.devRef .tc main_arg7) = W (Proc.devRef .tc main_arg7) := by
  after_results
theorem s2_main_arg8 : StableHlo.after (hostOps2 (F := F)) W (Proc.devRef .tc main_arg8) = W (Proc.devRef .tc main_arg8) := by
  after_results
theorem s2_main_arg9 : StableHlo.after (hostOps2 (F := F)) W (Proc.devRef .tc main_arg9) = W (Proc.devRef .tc main_arg9) := by
  after_results
theorem s2_main_v11 : StableHlo.after (hostOps2 (F := F)) W (Proc.devRef .tc main_v11) = W (Proc.devRef .tc main_v11) := by
  after_results
theorem s2_main_v39 : StableHlo.after (hostOps2 (F := F)) W (Proc.devRef .tc main_v39) = W (Proc.devRef .tc main_v39) := by
  after_results
theorem s3_main_arg1 : StableHlo.after (hostOps3 (F := F)) W (Proc.devRef .tc main_arg1) = W (Proc.devRef .tc main_arg1) := by
  after_results
theorem s3_main_arg2 : StableHlo.after (hostOps3 (F := F)) W (Proc.devRef .tc main_arg2) = W (Proc.devRef .tc main_arg2) := by
  after_results
theorem s3_main_arg5 : StableHlo.after (hostOps3 (F := F)) W (Proc.devRef .tc main_arg5) = W (Proc.devRef .tc main_arg5) := by
  after_results
theorem s3_main_arg6 : StableHlo.after (hostOps3 (F := F)) W (Proc.devRef .tc main_arg6) = W (Proc.devRef .tc main_arg6) := by
  after_results
theorem s3_main_arg7 : StableHlo.after (hostOps3 (F := F)) W (Proc.devRef .tc main_arg7) = W (Proc.devRef .tc main_arg7) := by
  after_results
theorem s3_main_arg8 : StableHlo.after (hostOps3 (F := F)) W (Proc.devRef .tc main_arg8) = W (Proc.devRef .tc main_arg8) := by
  after_results
theorem s3_main_arg9 : StableHlo.after (hostOps3 (F := F)) W (Proc.devRef .tc main_arg9) = W (Proc.devRef .tc main_arg9) := by
  after_results
theorem s3_main_v11 : StableHlo.after (hostOps3 (F := F)) W (Proc.devRef .tc main_v11) = W (Proc.devRef .tc main_v11) := by
  after_results
theorem s3_main_v65 : StableHlo.after (hostOps3 (F := F)) W (Proc.devRef .tc main_v65) = W (Proc.devRef .tc main_v65) := by
  after_results

end Stretches

variable (m : (ℓ : Loc nD τ sig) → Buf (Elt F) ℓ) (ρ : Dev nD → PrngReg) (c : Dev nD)

/-! ## The arguments at the first region's entry -/

theorem W3_main_arg0 : W3 m ρ c (Proc.devRef .tc main_arg0) = m ((c : Thread nD τ).loc main_arg0) :=
  (s02_main_arg0 _).trans ((s01_main_arg0 _).trans ((s00_main_arg0 _).trans rfl))
theorem W3_main_arg1 : W3 m ρ c (Proc.devRef .tc main_arg1) = m ((c : Thread nD τ).loc main_arg1) :=
  (s02_main_arg1 _).trans ((s01_main_arg1 _).trans ((s00_main_arg1 _).trans rfl))
theorem W3_main_arg2 : W3 m ρ c (Proc.devRef .tc main_arg2) = m ((c : Thread nD τ).loc main_arg2) :=
  (s02_main_arg2 _).trans ((s01_main_arg2 _).trans ((s00_main_arg2 _).trans rfl))
theorem W3_main_arg3 : W3 m ρ c (Proc.devRef .tc main_arg3) = m ((c : Thread nD τ).loc main_arg3) :=
  (s02_main_arg3 _).trans ((s01_main_arg3 _).trans ((s00_main_arg3 _).trans rfl))
theorem W3_main_arg4 : W3 m ρ c (Proc.devRef .tc main_arg4) = m ((c : Thread nD τ).loc main_arg4) :=
  (s02_main_arg4 _).trans ((s01_main_arg4 _).trans ((s00_main_arg4 _).trans rfl))
theorem W3_main_arg5 : W3 m ρ c (Proc.devRef .tc main_arg5) = m ((c : Thread nD τ).loc main_arg5) :=
  (s02_main_arg5 _).trans ((s01_main_arg5 _).trans ((s00_main_arg5 _).trans rfl))
theorem W3_main_arg6 : W3 m ρ c (Proc.devRef .tc main_arg6) = m ((c : Thread nD τ).loc main_arg6) :=
  (s02_main_arg6 _).trans ((s01_main_arg6 _).trans ((s00_main_arg6 _).trans rfl))
theorem W3_main_arg7 : W3 m ρ c (Proc.devRef .tc main_arg7) = m ((c : Thread nD τ).loc main_arg7) :=
  (s02_main_arg7 _).trans ((s01_main_arg7 _).trans ((s00_main_arg7 _).trans rfl))
theorem W3_main_arg8 : W3 m ρ c (Proc.devRef .tc main_arg8) = m ((c : Thread nD τ).loc main_arg8) :=
  (s02_main_arg8 _).trans ((s01_main_arg8 _).trans ((s00_main_arg8 _).trans rfl))
theorem W3_main_arg9 : W3 m ρ c (Proc.devRef .tc main_arg9) = m ((c : Thread nD τ).loc main_arg9) :=
  (s02_main_arg9 _).trans ((s01_main_arg9 _).trans ((s00_main_arg9 _).trans rfl))

theorem W2_main_arg4 : W2 m ρ c (Proc.devRef .tc main_arg4) = m ((c : Thread nD τ).loc main_arg4) :=
  (s01_main_arg4 _).trans ((s00_main_arg4 _).trans rfl)

/-! ## The carried buffers at every later boundary -/

theorem W4_main_arg1 : W4 m ρ c (Proc.devRef .tc main_arg1) = m ((c : Thread nD τ).loc main_arg1) :=
  (W4_of_ne m ρ c main_arg1 (by decide)).trans (W3_main_arg1 m ρ c)
theorem W5_main_arg1 : W5 m ρ c (Proc.devRef .tc main_arg1) = m ((c : Thread nD τ).loc main_arg1) :=
  (s1_main_arg1 _).trans (W4_main_arg1 m ρ c)
theorem W6_main_arg1 : W6 m ρ c (Proc.devRef .tc main_arg1) = m ((c : Thread nD τ).loc main_arg1) :=
  (W6_of_ne m ρ c main_arg1 (by decide)).trans (W5_main_arg1 m ρ c)
theorem W7_main_arg1 : W7 m ρ c (Proc.devRef .tc main_arg1) = m ((c : Thread nD τ).loc main_arg1) :=
  (s2_main_arg1 _).trans (W6_main_arg1 m ρ c)
theorem W8_main_arg1 : W8 m ρ c (Proc.devRef .tc main_arg1) = m ((c : Thread nD τ).loc main_arg1) :=
  (W8_of_ne m ρ c main_arg1 (by decide)).trans (W7_main_arg1 m ρ c)
theorem W4_main_arg2 : W4 m ρ c (Proc.devRef .tc main_arg2) = m ((c : Thread nD τ).loc main_arg2) :=
  (W4_of_ne m ρ c main_arg2 (by decide)).trans (W3_main_arg2 m ρ c)
theorem W5_main_arg2 : W5 m ρ c (Proc.devRef .tc main_arg2) = m ((c : Thread nD τ).loc main_arg2) :=
  (s1_main_arg2 _).trans (W4_main_arg2 m ρ c)
theorem W6_main_arg2 : W6 m ρ c (Proc.devRef .tc main_arg2) = m ((c : Thread nD τ).loc main_arg2) :=
  (W6_of_ne m ρ c main_arg2 (by decide)).trans (W5_main_arg2 m ρ c)
theorem W7_main_arg2 : W7 m ρ c (Proc.devRef .tc main_arg2) = m ((c : Thread nD τ).loc main_arg2) :=
  (s2_main_arg2 _).trans (W6_main_arg2 m ρ c)
theorem W8_main_arg2 : W8 m ρ c (Proc.devRef .tc main_arg2) = m ((c : Thread nD τ).loc main_arg2) :=
  (W8_of_ne m ρ c main_arg2 (by decide)).trans (W7_main_arg2 m ρ c)
theorem W4_main_arg5 : W4 m ρ c (Proc.devRef .tc main_arg5) = m ((c : Thread nD τ).loc main_arg5) :=
  (W4_of_ne m ρ c main_arg5 (by decide)).trans (W3_main_arg5 m ρ c)
theorem W5_main_arg5 : W5 m ρ c (Proc.devRef .tc main_arg5) = m ((c : Thread nD τ).loc main_arg5) :=
  (s1_main_arg5 _).trans (W4_main_arg5 m ρ c)
theorem W6_main_arg5 : W6 m ρ c (Proc.devRef .tc main_arg5) = m ((c : Thread nD τ).loc main_arg5) :=
  (W6_of_ne m ρ c main_arg5 (by decide)).trans (W5_main_arg5 m ρ c)
theorem W7_main_arg5 : W7 m ρ c (Proc.devRef .tc main_arg5) = m ((c : Thread nD τ).loc main_arg5) :=
  (s2_main_arg5 _).trans (W6_main_arg5 m ρ c)
theorem W8_main_arg5 : W8 m ρ c (Proc.devRef .tc main_arg5) = m ((c : Thread nD τ).loc main_arg5) :=
  (W8_of_ne m ρ c main_arg5 (by decide)).trans (W7_main_arg5 m ρ c)
theorem W4_main_arg6 : W4 m ρ c (Proc.devRef .tc main_arg6) = m ((c : Thread nD τ).loc main_arg6) :=
  (W4_of_ne m ρ c main_arg6 (by decide)).trans (W3_main_arg6 m ρ c)
theorem W5_main_arg6 : W5 m ρ c (Proc.devRef .tc main_arg6) = m ((c : Thread nD τ).loc main_arg6) :=
  (s1_main_arg6 _).trans (W4_main_arg6 m ρ c)
theorem W6_main_arg6 : W6 m ρ c (Proc.devRef .tc main_arg6) = m ((c : Thread nD τ).loc main_arg6) :=
  (W6_of_ne m ρ c main_arg6 (by decide)).trans (W5_main_arg6 m ρ c)
theorem W7_main_arg6 : W7 m ρ c (Proc.devRef .tc main_arg6) = m ((c : Thread nD τ).loc main_arg6) :=
  (s2_main_arg6 _).trans (W6_main_arg6 m ρ c)
theorem W8_main_arg6 : W8 m ρ c (Proc.devRef .tc main_arg6) = m ((c : Thread nD τ).loc main_arg6) :=
  (W8_of_ne m ρ c main_arg6 (by decide)).trans (W7_main_arg6 m ρ c)
theorem W4_main_arg7 : W4 m ρ c (Proc.devRef .tc main_arg7) = m ((c : Thread nD τ).loc main_arg7) :=
  (W4_of_ne m ρ c main_arg7 (by decide)).trans (W3_main_arg7 m ρ c)
theorem W5_main_arg7 : W5 m ρ c (Proc.devRef .tc main_arg7) = m ((c : Thread nD τ).loc main_arg7) :=
  (s1_main_arg7 _).trans (W4_main_arg7 m ρ c)
theorem W6_main_arg7 : W6 m ρ c (Proc.devRef .tc main_arg7) = m ((c : Thread nD τ).loc main_arg7) :=
  (W6_of_ne m ρ c main_arg7 (by decide)).trans (W5_main_arg7 m ρ c)
theorem W7_main_arg7 : W7 m ρ c (Proc.devRef .tc main_arg7) = m ((c : Thread nD τ).loc main_arg7) :=
  (s2_main_arg7 _).trans (W6_main_arg7 m ρ c)
theorem W8_main_arg7 : W8 m ρ c (Proc.devRef .tc main_arg7) = m ((c : Thread nD τ).loc main_arg7) :=
  (W8_of_ne m ρ c main_arg7 (by decide)).trans (W7_main_arg7 m ρ c)
theorem W4_main_arg8 : W4 m ρ c (Proc.devRef .tc main_arg8) = m ((c : Thread nD τ).loc main_arg8) :=
  (W4_of_ne m ρ c main_arg8 (by decide)).trans (W3_main_arg8 m ρ c)
theorem W5_main_arg8 : W5 m ρ c (Proc.devRef .tc main_arg8) = m ((c : Thread nD τ).loc main_arg8) :=
  (s1_main_arg8 _).trans (W4_main_arg8 m ρ c)
theorem W6_main_arg8 : W6 m ρ c (Proc.devRef .tc main_arg8) = m ((c : Thread nD τ).loc main_arg8) :=
  (W6_of_ne m ρ c main_arg8 (by decide)).trans (W5_main_arg8 m ρ c)
theorem W7_main_arg8 : W7 m ρ c (Proc.devRef .tc main_arg8) = m ((c : Thread nD τ).loc main_arg8) :=
  (s2_main_arg8 _).trans (W6_main_arg8 m ρ c)
theorem W8_main_arg8 : W8 m ρ c (Proc.devRef .tc main_arg8) = m ((c : Thread nD τ).loc main_arg8) :=
  (W8_of_ne m ρ c main_arg8 (by decide)).trans (W7_main_arg8 m ρ c)
theorem W4_main_arg9 : W4 m ρ c (Proc.devRef .tc main_arg9) = m ((c : Thread nD τ).loc main_arg9) :=
  (W4_of_ne m ρ c main_arg9 (by decide)).trans (W3_main_arg9 m ρ c)
theorem W5_main_arg9 : W5 m ρ c (Proc.devRef .tc main_arg9) = m ((c : Thread nD τ).loc main_arg9) :=
  (s1_main_arg9 _).trans (W4_main_arg9 m ρ c)
theorem W6_main_arg9 : W6 m ρ c (Proc.devRef .tc main_arg9) = m ((c : Thread nD τ).loc main_arg9) :=
  (W6_of_ne m ρ c main_arg9 (by decide)).trans (W5_main_arg9 m ρ c)
theorem W7_main_arg9 : W7 m ρ c (Proc.devRef .tc main_arg9) = m ((c : Thread nD τ).loc main_arg9) :=
  (s2_main_arg9 _).trans (W6_main_arg9 m ρ c)
theorem W8_main_arg9 : W8 m ρ c (Proc.devRef .tc main_arg9) = m ((c : Thread nD τ).loc main_arg9) :=
  (W8_of_ne m ρ c main_arg9 (by decide)).trans (W7_main_arg9 m ρ c)
theorem W4_main_v11 : W4 m ρ c (Proc.devRef .tc main_v11) = W3 m ρ c (Proc.devRef .tc main_v11) :=
  (W4_of_ne m ρ c main_v11 (by decide)).trans (rfl)
theorem W5_main_v11 : W5 m ρ c (Proc.devRef .tc main_v11) = W3 m ρ c (Proc.devRef .tc main_v11) :=
  (s1_main_v11 _).trans (W4_main_v11 m ρ c)
theorem W6_main_v11 : W6 m ρ c (Proc.devRef .tc main_v11) = W3 m ρ c (Proc.devRef .tc main_v11) :=
  (W6_of_ne m ρ c main_v11 (by decide)).trans (W5_main_v11 m ρ c)
theorem W7_main_v11 : W7 m ρ c (Proc.devRef .tc main_v11) = W3 m ρ c (Proc.devRef .tc main_v11) :=
  (s2_main_v11 _).trans (W6_main_v11 m ρ c)
theorem W8_main_v11 : W8 m ρ c (Proc.devRef .tc main_v11) = W3 m ρ c (Proc.devRef .tc main_v11) :=
  (W8_of_ne m ρ c main_v11 (by decide)).trans (W7_main_v11 m ρ c)

end Cert.KernelIdeal.Carry

end
-- ==== Proof.RefAggregate.lean ====
/-
  The averaged neighbour features, as one function of a feature matrix.

  Between two layers the reference gathers, for every edge, the feature row of the edge's source node (a negative
  source index first wrapped by the number of nodes), adds the gathered rows into the rows of the edges' destination
  nodes starting from the zero matrix, and scales each node's row by the reciprocal of its in-degree (zero for a node
  with no incoming edge). This happens three times, on three different feature matrices, with the same operations; `agg`
  names the map once, and the three stages of the reference that compute it are `agg` of the respective feature matrix
  by unfolding.
-/
import proofs.«134528_j43946105373340_1_alg».proof.Proof.RefReadP

noncomputable section

namespace Cert.RefNet

open Cert.ReferenceIdeal Cert.ReferenceIdeal.ReadP Idealize.ShloMosaic

variable {F : FTy → Type} [FloatOps F]

/-- The neighbour mean of the feature matrix `h` along the edges `x1 → x2`. -/
def agg (h : (⟨S100000x64, .f32⟩ : BufTy).Contents (Elt F)) (x1 x2 : (⟨S3200000, .i32⟩ : BufTy).Contents (Elt F)) :
    (⟨S100000x64, .f32⟩ : BufTy).Contents (Elt F) :=
  mulf (Host.scatterAdd scatter_S100000x64_S3200000x1_S3200000x64_1_0_0_1 (val_main_v25 (F := F)) (val_main_v26 (F := F) x2)
      (Host.gather gather_S100000x64_S3200000x1_S3200000x64_1_0_n_n_0_1_164 h (val_main_v23 (F := F) x1)))
    (val_main_v28 (F := F) x2)

variable (x0 : (⟨S100000x8, .f32⟩ : BufTy).Contents (Elt F)) (x1 x2 : (⟨S3200000, .i32⟩ : BufTy).Contents (Elt F)) (x3 : (⟨S64x8, .f32⟩ : BufTy).Contents (Elt F)) (x4 : (⟨S64, .f32⟩ : BufTy).Contents (Elt F)) (x5 x6 : (⟨S3x64x64, .f32⟩ : BufTy).Contents (Elt F)) (x7 x8 x9 : (⟨S3x64, .f32⟩ : BufTy).Contents (Elt F))

theorem agg1 : val_main_v29 (F := F) x0 x1 x2 x3 x4 = agg (val_main_v17 (F := F) x0 x3 x4) x1 x2 := rfl

theorem agg2 : val_main_v85 (F := F) x0 x1 x2 x3 x4 x5 x6 x7 x8 x9 = agg (val_main_v73 (F := F) x0 x1 x2 x3 x4 x5 x6 x7 x8 x9) x1 x2 := rfl

theorem agg3 : val_main_v141 (F := F) x0 x1 x2 x3 x4 x5 x6 x7 x8 x9 = agg (val_main_v129 (F := F) x0 x1 x2 x3 x4 x5 x6 x7 x8 x9) x1 x2 := rfl

end Cert.RefNet

end
-- ==== Proof.LibTypedRef.lean ====
/-
  Typed references and lines of host operations: three general facts.

  An operation of a module-local function is spelt over typed references: its function is stated at the value's type
  `T` and moved to the buffer's own type along the reference's proof that the two types agree (`toBuf`), and an
  operand's contents are moved the other way (`ofBuf`). Both moves are the identity, since the proof they move along
  can only be reflexivity; the lemmas here say so for any typed reference, by taking the reference apart:

  * `ofBuf_toBuf`: there and back is the identity (what stands between two operations of a line that is read back);
  * `toBuf_eq`: a moved value equals contents of the buffer that are the same value (the outermost move);
  * `after_append`: the contents after two lines in a row are those after their concatenation, so a long line can be
    read back stretch by stretch.
-/
import Idealize.ShloMosaic.Lib.StableHlo.Run

noncomputable section

namespace Idealize.ShloMosaic.TypedRef

open Idealize.ShloMosaic Idealize.ShloMosaic.StableHlo

variable {nD : Nat} {τ : Topo} {sig : RefSig} {Val : EltTy → Type}

/-- A value moved to the buffer's type and back is the value. -/
theorem ofBuf_toBuf {T : BufTy} (x : TRef sig T) (v : T.Contents Val) : x.ofBuf (x.toBuf v) = v := by
  obtain ⟨r, rfl, h2, h3⟩ := x
  rfl

/-- A value moved to the buffer's type is any contents of the buffer that are the same value. -/
theorem toBuf_eq {T : BufTy} (x : TRef sig T) (v : T.Contents Val) (w : x.ref.ty.Contents Val) (h : HEq v w) :
    x.toBuf v = w := by
  obtain ⟨r, rfl, h2, h3⟩ := x
  exact eq_of_heq h

/-- The contents after a line and then another are the contents after their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

end Idealize.ShloMosaic.TypedRef

end
-- ==== Proof.Stretches.lean ====
/-
  What each host stretch hands the next region.

  Before the first region the host reshapes the input bias to a row; before each layer's region it computes the averaged
  neighbour features of the current feature matrix, cuts the layer's two weight matrices out of the stacked weights, and
  cuts the layer's bias, scale and shift out of the stacked parameters, each as a 1 × 64 row. The reference performs the
  same operations on the same arguments, so each of these buffers is the corresponding stage of the reference, applied
  to what the previous boundary holds: the neighbour mean is `RefNet.agg` of the feature matrix, a weight matrix is the
  reference's slice stage, and a parameter row is the reference's length-64 slice stage recast as a row.
-/
import proofs.«134528_j43946105373340_1_alg».proof.Proof.Gen.KernelIdeal.Frame
import proofs.«134528_j43946105373340_1_alg».proof.Proof.RefAggregate
import proofs.«134528_j43946105373340_1_alg».proof.Proof.LibTypedRef
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (W : Valuation τ sig (Elt Ideal))

/-! The outlined `where` is spelt over typed references, whose moves between a value's type and its buffer's type are
    the identity at each of the four buffers involved. -/
theorem ofBuf_v5 (v : (⟨S100000, .i1⟩ : BufTy).Contents (Elt Ideal)) :
    ((.of main_v5 : StableHlo.TRef sig ⟨S100000, .i1⟩).ofBuf v : (⟨S100000, .i1⟩ : BufTy).Contents (Elt Ideal)) = v := rfl
theorem ofBuf_v9 (v : (⟨S100000, .f32⟩ : BufTy).Contents (Elt Ideal)) :
    ((.of main_v9 : StableHlo.TRef sig ⟨S100000, .f32⟩).ofBuf v : (⟨S100000, .f32⟩ : BufTy).Contents (Elt Ideal)) = v := rfl
theorem ofBuf_cst4 (v : (⟨S_, .f32⟩ : BufTy).Contents (Elt Ideal)) :
    ((.of main_cst_4 : StableHlo.TRef sig ⟨S_, .f32⟩).ofBuf v : (⟨S_, .f32⟩ : BufTy).Contents (Elt Ideal)) = v := rfl
theorem toBuf_v10 (v : (⟨S100000, .f32⟩ : BufTy).Contents (Elt Ideal)) :
    ((.of main_v10 : StableHlo.TRef sig ⟨S100000, .f32⟩).toBuf v : (⟨S100000, .f32⟩ : BufTy).Contents (Elt Ideal)) = v := rfl

set_option maxHeartbeats 4000000 in
/-- The reciprocal in-degrees, as a column, are the reference's stage of the destination indices. -/
theorem invdeg :
    StableHlo.after (hostOps0_2 (F := Ideal)) (StableHlo.after (hostOps0_1 (F := Ideal)) (StableHlo.after (hostOps0 (F := Ideal)) W)) (Proc.devRef .tc main_v11)
      = Cert.ReferenceIdeal.ReadP.val_main_v11 (F := Ideal) (W (Proc.devRef .tc main_arg2)) := by
  after_results_simp
  simp only [Idealize.ShloMosaic.TypedRef.ofBuf_toBuf, ofBuf_v5, ofBuf_v9, ofBuf_cst4, toBuf_v10]
  rfl

/-- The input bias as a row. -/
theorem bias_row :
    StableHlo.after (hostOps0_2 (F := Ideal)) W (Proc.devRef .tc main_v12)
      = shapeCast S1x64 (W (Proc.devRef .tc main_arg4)) shapeCasts_S64_S1x64 := by
  after_results
  rfl

/-! ## Before layer 1 -/

set_option maxHeartbeats 4000000 in
theorem s1_nm (h11 : W (Proc.devRef .tc main_v11) = Cert.ReferenceIdeal.ReadP.val_main_v11 (F := Ideal) (W (Proc.devRef .tc main_arg2))) :
    StableHlo.after (hostOps1 (F := Ideal)) W (Proc.devRef .tc main_v25)
      = Cert.RefNet.agg (F := Ideal) (W (Proc.devRef .tc main_v13)) (W (Proc.devRef .tc main_arg1)) (W (Proc.devRef .tc main_arg2)) := by
  after_results_simp
  rw [h11]
  rfl

theorem s1_ws :
    StableHlo.after (hostOps1 (F := Ideal)) W (Proc.devRef .tc main_v27) = Cert.ReferenceIdeal.ReadP.val_main_v31 (F := Ideal) (W (Proc.devRef .tc main_arg5)) := by
  after_results
  rfl

theorem s1_wn :
    StableHlo.after (hostOps1 (F := Ideal)) W (Proc.devRef .tc main_v29) = Cert.ReferenceIdeal.ReadP.val_main_v35 (F := Ideal) (W (Proc.devRef .tc main_arg6)) := by
  after_results
  rfl

theorem s1_b :
    StableHlo.after (hostOps1 (F := Ideal)) W (Proc.devRef .tc main_v36)
      = shapeCast S1x64 (Cert.ReferenceIdeal.ReadP.val_main_v40 (F := Ideal) (W (Proc.devRef .tc main_arg7))) shapeCasts_S64_S1x64 := by
  after_results
  rfl

theorem s1_g :
    StableHlo.after (hostOps1 (F := Ideal)) W (Proc.devRef .tc main_v37)
      = shapeCast S1x64 (Cert.ReferenceIdeal.ReadP.val_main_v45 (F := Ideal) (W (Proc.devRef .tc main_arg8))) shapeCasts_S64_S1x64 := by
  after_results
  rfl

theorem s1_be :
    StableHlo.after (hostOps1 (F := Ideal)) W (Proc.devRef .tc main_v38)
      = shapeCast S1x64 (Cert.ReferenceIdeal.ReadP.val_main_v47 (F := Ideal) (W (Proc.devRef .tc main_arg9))) shapeCasts_S64_S1x64 := by
  after_results
  rfl

/-! ## Before layer 2 -/

set_option maxHeartbeats 4000000 in
theorem s2_nm (h11 : W (Proc.devRef .tc main_v11) = Cert.ReferenceIdeal.ReadP.val_main_v11 (F := Ideal) (W (Proc.devRef .tc main_arg2))) :
    StableHlo.after (hostOps2 (F := Ideal)) W (Proc.devRef .tc main_v51)
      = Cert.RefNet.agg (F := Ideal) (W (Proc.devRef .tc main_v39)) (W (Proc.devRef .tc main_arg1)) (W (Proc.devRef .tc main_arg2)) := by
  after_results_simp
  rw [h11]
  rfl

theorem s2_ws :
    StableHlo.after (hostOps2 (F := Ideal)) W (Proc.devRef .tc main_v53) = Cert.ReferenceIdeal.ReadP.val_main_v87 (F := Ideal) (W (Proc.devRef .tc main_arg5)) := by
  after_results
  rfl

theorem s2_wn :
    StableHlo.after (hostOps2 (F := Ideal)) W (Proc.devRef .tc main_v55) = Cert.ReferenceIdeal.ReadP.val_main_v91 (F := Ideal) (W (Proc.devRef .tc main_arg6)) := by
  after_results
  rfl

theorem s2_b :
    StableHlo.after (hostOps2 (F := Ideal)) W (Proc.devRef .tc main_v62)
      = shapeCast S1x64 (Cert.ReferenceIdeal.ReadP.val_main_v96 (F := Ideal) (W (Proc.devRef .tc main_arg7))) shapeCasts_S64_S1x64 := by
  after_results
  rfl

theorem s2_g :
    StableHlo.after (hostOps2 (F := Ideal)) W (Proc.devRef .tc main_v63)
      = shapeCast S1x64 (Cert.ReferenceIdeal.ReadP.val_main_v101 (F := Ideal) (W (Proc.devRef .tc main_arg8))) shapeCasts_S64_S1x64 := by
  after_results
  rfl

theorem s2_be :
    StableHlo.after (hostOps2 (F := Ideal)) W (Proc.devRef .tc main_v64)
      = shapeCast S1x64 (Cert.ReferenceIdeal.ReadP.val_main_v103 (F := Ideal) (W (Proc.devRef .tc main_arg9))) shapeCasts_S64_S1x64 := by
  after_results
  rfl

/-! ## Before layer 3 -/

set_option maxHeartbeats 4000000 in
theorem s3_nm (h11 : W (Proc.devRef .tc main_v11) = Cert.ReferenceIdeal.ReadP.val_main_v11 (F := Ideal) (W (Proc.devRef .tc main_arg2))) :
    StableHlo.after (hostOps3 (F := Ideal)) W (Proc.devRef .tc main_v77)
      = Cert.RefNet.agg (F := Ideal) (W (Proc.devRef .tc main_v65)) (W (Proc.devRef .tc main_arg1)) (W (Proc.devRef .tc main_arg2)) := by
  after_results_simp
  rw [h11]
  rfl

theorem s3_ws :
    StableHlo.after (hostOps3 (F := Ideal)) W (Proc.devRef .tc main_v79) = Cert.ReferenceIdeal.ReadP.val_main_v143 (F := Ideal) (W (Proc.devRef .tc main_arg5)) := by
  after_results
  rfl

theorem s3_wn :
    StableHlo.after (hostOps3 (F := Ideal)) W (Proc.devRef .tc main_v81) = Cert.ReferenceIdeal.ReadP.val_main_v147 (F := Ideal) (W (Proc.devRef .tc main_arg6)) := by
  after_results
  rfl

theorem s3_b :
    StableHlo.after (hostOps3 (F := Ideal)) W (Proc.devRef .tc main_v88)
      = shapeCast S1x64 (Cert.ReferenceIdeal.ReadP.val_main_v152 (F := Ideal) (W (Proc.devRef .tc main_arg7))) shapeCasts_S64_S1x64 := by
  after_results
  rfl

theorem s3_g :
    StableHlo.after (hostOps3 (F := Ideal)) W (Proc.devRef .tc main_v89)
      = shapeCast S1x64 (Cert.ReferenceIdeal.ReadP.val_main_v157 (F := Ideal) (W (Proc.devRef .tc main_arg8))) shapeCasts_S64_S1x64 := by
  after_results
  rfl

theorem s3_be :
    StableHlo.after (hostOps3 (F := Ideal)) W (Proc.devRef .tc main_v90)
      = shapeCast S1x64 (Cert.ReferenceIdeal.ReadP.val_main_v159 (F := Ideal) (W (Proc.devRef .tc main_arg9))) shapeCasts_S64_S1x64 := by
  after_results
  rfl

end Cert.KernelIdeal.Stretch

end
-- ==== Proof.RefProj.lean ====
/-
  The reference's input projection, read at one entry.

  The reference forms the product of the feature matrix with the transposed weight matrix, adds the bias row
  to every row, and takes the maximum with the zero word.  At row `r`, column `j` this is entry `j` of the
  projected row of node `r`.
-/
import proofs.«134528_j43946105373340_1_alg».proof.Proof.RefReadP
import proofs.«134528_j43946105373340_1_alg».proof.Proof.NodeRows
import Idealize.ShloMosaic.Lib.ValueIdx
import Idealize.ShloMosaic.PureOps.Ideal.Laws

noncomputable section

open scoped BigOperators

namespace Cert.RefRows

open Cert.ReferenceIdeal Cert.ReferenceIdeal.ReadP Cert.NodeRows Idealize.ShloMosaic Idealize.ShloMosaic.ValueIdx

/-- Entry `(r, j)` of the projected features is entry `j` of the projection of row `r`. -/
theorem proj_entry
    (x0 : (⟨S100000x8, .f32⟩ : BufTy).Contents (Elt Ideal))
    (x3 : (⟨S64x8, .f32⟩ : BufTy).Contents (Elt Ideal))
    (x4 : (⟨S64, .f32⟩ : BufTy).Contents (Elt Ideal))
    (r : Fin 100000) (j : Fin 64) :
    val_main_v17 (F := Ideal) x0 x3 x4 (ix2 r j)
      = projRow (fun k => x0 (ix2 r k)) (fun j k => x3 (ix2 j k)) (fun j => x4 (ix1 j)) j := by
  -- the composed index maps at `(r, j)`
  have eL : ∀ k : Fin 8, lidx_main_v13 (ix2 r j) k = ix2 r k := fun k =>
    funext fun a => Fin.ext (by match a with | ⟨0, _⟩ => rfl | ⟨1, _⟩ => rfl)
  have eR : ∀ k : Fin 8, idx_main_v12 (ridx_main_v13 (ix2 r j) k) = ix2 j k := fun k =>
    funext fun a => Fin.ext (by match a with | ⟨0, _⟩ => rfl | ⟨1, _⟩ => rfl)
  have eB : idx_main_v14 (idx_main_v15 (ix2 r j)) = ix1 j :=
    funext fun a => Fin.ext (by match a with | ⟨0, _⟩ => rfl)
  rw [val_main_v17_apply, val_main_v16_apply, val_main_v13_apply, val_main_v15_apply, val_main_v14_apply,
    val_main_call1_v0_apply, val_main_call1_cst_apply]
  simp only [val_main_v12_apply, eL, eR, eB]
  rfl

end Cert.RefRows

end
-- ==== Proof.Feat0.lean ====
/-
  After the first region the feature matrix is the reference's.

  The first region's output array is the input projection applied to every row of the input matrix, with the weight
  matrix and the bias as a row (the host's reshape of the bias vector). The reference computes the same row map by a
  matrix product with the transposed weights, a broadcast bias and a rectifier; read at an entry, both are one
  expression of the same row, the same weights and the same bias entry.
-/
import proofs.«134528_j43946105373340_1_alg».proof.Proof.Region0Value
import proofs.«134528_j43946105373340_1_alg».proof.Proof.Carry
import proofs.«134528_j43946105373340_1_alg».proof.Proof.Stretches
import proofs.«134528_j43946105373340_1_alg».proof.Proof.RefProj
import Idealize.ShloMosaic.Lib.ValueLayout

set_option maxRecDepth 16384

noncomputable section

namespace Cert.KernelIdeal.Net

open Cert.KernelIdeal Cert.KernelIdeal.Gen Cert.NodeRows
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The reciprocal in-degrees, a column computed before the first region, are the reference's stage of the destination
    indices. -/
theorem invdeg3 :
    W3 m ρ c (Proc.devRef .tc main_v11) = Cert.ReferenceIdeal.ReadP.val_main_v11 (F := Ideal) (m ((c : Thread nD τ).loc main_arg2)) :=
  Stretch.invdeg (W0 m ρ c)

/-- The bias row the first region reads, at an entry, is the bias vector's entry. -/
theorem bias_entry (j : Fin 64) :
    V3 m ρ c main_v12 (ix2 (0 : Fin 1) j) = (m ((c : Thread nD τ).loc main_arg4)) (ix1 j) := by
  show StableHlo.after (hostOps0_2 (F := Ideal)) (W2 m ρ c) (Proc.devRef .tc main_v12) (ix2 (0 : Fin 1) j) = _
  rw [Stretch.bias_row (W2 m ρ c), shapeCast_a_1a_apply, Carry.W2_main_arg4 m ρ c]

/-- THE FEATURE MATRIX AFTER THE FIRST REGION is the reference's projected, rectified input. -/
theorem feat0 :
    W4 m ρ c (Proc.devRef .tc main_v13)
      = Cert.ReferenceIdeal.ReadP.val_main_v17 (F := Ideal) (m ((c : Thread nD τ).loc main_arg0)) (m ((c : Thread nD τ).loc main_arg3)) (m ((c : Thread nD τ).loc main_arg4)) := by
  refine (W4_arr m ρ c 3).trans ?_
  refine (Region0.final (V3 m ρ) c).trans ?_
  funext i
  obtain ⟨r, j, rfl⟩ : ∃ (r : Fin 100000) (j : Fin 64), i = ix2 r j := ⟨i 0, i 1, eq_ix2 i⟩
  rw [projArr_apply]
  refine Eq.trans ?_ (Cert.RefRows.proj_entry (m ((c : Thread nD τ).loc main_arg0)) (m ((c : Thread nD τ).loc main_arg3)) (m ((c : Thread nD τ).loc main_arg4)) r j).symm
  unfold projAt
  have e0 : V3 m ρ c (Pipeline.arrRef spec0 0) = (m ((c : Thread nD τ).loc main_arg0)) := Carry.W3_main_arg0 m ρ c
  have e1 : V3 m ρ c (Pipeline.arrRef spec0 1) = (m ((c : Thread nD τ).loc main_arg3)) := Carry.W3_main_arg3 m ρ c
  have e2 : ∀ j : Fin 64, V3 m ρ c (Pipeline.arrRef spec0 2) (ix2 (0 : Fin 1) j) = (m ((c : Thread nD τ).loc main_arg4)) (ix1 j) := bias_entry m ρ c
  rw [e0, e1]
  simp only [e2]

end Cert.KernelIdeal.Net

end
-- ==== Proof.RefLayer1.lean ====
/-
  The reference's first layer, read at one entry.

  The reference multiplies the node features and the averaged neighbour features by the transposed weight
  matrices, adds the bias row, normalises every row over its 64 features (mean, mean squared deviation,
  reciprocal square root), scales and shifts by the two parameter rows, takes the maximum with the zero word and
  adds the layer's input back.  At row `r`, column `j` this is entry `j` of the layer applied to the rows of
  node `r`.  The two sums over the features start from the zero word, which adds nothing.
-/
import proofs.«134528_j43946105373340_1_alg».proof.Proof.RefReadP
import proofs.«134528_j43946105373340_1_alg».proof.Proof.NodeRows
import Idealize.ShloMosaic.Lib.ValueIdx
import Idealize.ShloMosaic.PureOps.Ideal.Laws

noncomputable section

open scoped BigOperators

namespace Cert.RefRows

open Cert.ReferenceIdeal Cert.ReferenceIdeal.ReadP Cert.NodeRows Idealize.ShloMosaic Idealize.ShloMosaic.ValueIdx

section

variable
  (x0 : (⟨S100000x8, .f32⟩ : BufTy).Contents (Elt Ideal))
  (x1 x2 : (⟨S3200000, .i32⟩ : BufTy).Contents (Elt Ideal))
  (x3 : (⟨S64x8, .f32⟩ : BufTy).Contents (Elt Ideal))
  (x4 : (⟨S64, .f32⟩ : BufTy).Contents (Elt Ideal))
  (x5 x6 : (⟨S3x64x64, .f32⟩ : BufTy).Contents (Elt Ideal))
  (x7 x8 x9 : (⟨S3x64, .f32⟩ : BufTy).Contents (Elt Ideal))

/-- The row of node `r` entering the normalisation: own and neighbour features through the weight matrices, plus the bias. -/
def preRow1 (r : Fin 100000) : Fin 64 → EReal :=
  pre (fun k => val_main_v17 (F := Ideal) x0 x3 x4 (ix2 r k)) (fun k => val_main_v29 (F := Ideal) x0 x1 x2 x3 x4 (ix2 r k))
    (fun j k => val_main_v31 (F := Ideal) x5 (ix2 j k)) (fun j k => val_main_v35 (F := Ideal) x6 (ix2 j k)) (fun j => val_main_v40 (F := Ideal) x7 (ix1 j))

/-- Entry `(r, j)` before normalisation: the two matrix products read through the transposes, and the bias row. -/
theorem pre1_entry (r : Fin 100000) (j : Fin 64) :
    val_main_v43 (F := Ideal) x0 x1 x2 x3 x4 x5 x6 x7 (ix2 r j) = preRow1 x0 x1 x2 x3 x4 x5 x6 x7 r j := by
  have eL : ∀ k : Fin 64, lidx_main_v33 (ix2 r j) k = ix2 r k := fun k => funext fun a => Fin.ext (by match a with | ⟨0, _⟩ => rfl | ⟨1, _⟩ => rfl)
  have eR : ∀ k : Fin 64, idx_main_v32 (ridx_main_v33 (ix2 r j) k) = ix2 j k := fun k => funext fun a => Fin.ext (by match a with | ⟨0, _⟩ => rfl | ⟨1, _⟩ => rfl)
  have eL' : ∀ k : Fin 64, lidx_main_v37 (ix2 r j) k = ix2 r k := fun k => funext fun a => Fin.ext (by match a with | ⟨0, _⟩ => rfl | ⟨1, _⟩ => rfl)
  have eR' : ∀ k : Fin 64, idx_main_v36 (ridx_main_v37 (ix2 r j) k) = ix2 j k := fun k => funext fun a => Fin.ext (by match a with | ⟨0, _⟩ => rfl | ⟨1, _⟩ => rfl)
  have eB : idx_main_v41 (idx_main_v42 (ix2 r j)) = ix1 j := funext fun a => Fin.ext (by match a with | ⟨0, _⟩ => rfl)
  rw [val_main_v43_apply, val_main_v38_apply, val_main_v33_apply, val_main_v37_apply, val_main_v42_apply, val_main_v41_apply]
  simp only [val_main_v32_apply, val_main_v36_apply, eL, eR, eL', eR', eB]
  rfl

/-- The mean column at row `r` is the mean of that row. -/
theorem mean1_entry (r : Fin 100000) :
    val_main_v51 (F := Ideal) x0 x1 x2 x3 x4 x5 x6 x7 (ix2 r (0 : Fin 1)) = mean (preRow1 x0 x1 x2 x3 x4 x5 x6 x7 r) := by
  have e : ∀ k : Fin 64, idx_main_v48 (idx_main_v49 (ix2 r (0 : Fin 1))) k = ix2 r k := fun k => funext fun a => Fin.ext (by match a with | ⟨0, _⟩ => rfl | ⟨1, _⟩ => rfl)
  rw [val_main_v51_apply, val_main_v49_apply, val_main_v48_apply, val_main_v50_apply, val_main_cst_7_apply, val_main_cst_8_apply]
  simp only [e, pre1_entry, Ideal.ofBits_def, Ideal.ofBits_zero_f32, zero_add]
  rfl

/-- The mean-squared-deviation column at row `r` is the variance of that row. -/
theorem var1_entry (r : Fin 100000) :
    val_main_v58 (F := Ideal) x0 x1 x2 x3 x4 x5 x6 x7 (ix2 r (0 : Fin 1)) = variance (preRow1 x0 x1 x2 x3 x4 x5 x6 x7 r) := by
  have e : ∀ k : Fin 64, idx_main_v55 (idx_main_v56 (ix2 r (0 : Fin 1))) k = ix2 r k := fun k => funext fun a => Fin.ext (by match a with | ⟨0, _⟩ => rfl | ⟨1, _⟩ => rfl)
  have eM : ∀ k : Fin 64, idx_main_v52 (ix2 r k) = ix2 r (0 : Fin 1) := fun k => funext fun a => Fin.ext (by match a with | ⟨0, _⟩ => rfl | ⟨1, _⟩ => rfl)
  rw [val_main_v58_apply, val_main_v56_apply, val_main_v55_apply, val_main_v57_apply, val_main_cst_9_apply, val_main_cst_10_apply]
  simp only [e, val_main_v54_apply, val_main_v53_apply, val_main_v52_apply, eM, pre1_entry, mean1_entry, Ideal.ofBits_def, Ideal.ofBits_zero_f32, zero_add]
  rfl

/-- Entry `(r, j)` of the layer's output is entry `j` of the layer applied to the rows of node `r`. -/
theorem layer1_entry (r : Fin 100000) (j : Fin 64) :
    val_main_v73 (F := Ideal) x0 x1 x2 x3 x4 x5 x6 x7 x8 x9 (ix2 r j)
      = layerRow (fun k => val_main_v17 (F := Ideal) x0 x3 x4 (ix2 r k)) (fun k => val_main_v29 (F := Ideal) x0 x1 x2 x3 x4 (ix2 r k))
          (fun j k => val_main_v31 (F := Ideal) x5 (ix2 j k)) (fun j k => val_main_v35 (F := Ideal) x6 (ix2 j k))
          (fun j => val_main_v40 (F := Ideal) x7 (ix1 j)) (fun j => val_main_v45 (F := Ideal) x8 (ix1 j)) (fun j => val_main_v47 (F := Ideal) x9 (ix1 j)) j := by
  have eC : idx_main_v64 (ix2 r j) = ix2 r (0 : Fin 1) := funext fun a => Fin.ext (by match a with | ⟨0, _⟩ => rfl | ⟨1, _⟩ => rfl)
  have eM : idx_main_v59 (ix2 r j) = ix2 r (0 : Fin 1) := funext fun a => Fin.ext (by match a with | ⟨0, _⟩ => rfl | ⟨1, _⟩ => rfl)
  have eG : idx_main_v66 (idx_main_v67 (ix2 r j)) = ix1 j := funext fun a => Fin.ext (by match a with | ⟨0, _⟩ => rfl)
  have eBe : idx_main_v69 (idx_main_v70 (ix2 r j)) = ix1 j := funext fun a => Fin.ext (by match a with | ⟨0, _⟩ => rfl)
  rw [val_main_v73_apply, val_main_v72_apply, val_main_v71_apply, val_main_v68_apply, val_main_v65_apply, val_main_v60_apply, val_main_v59_apply, val_main_v64_apply, val_main_v63_apply, val_main_v62_apply, val_main_v61_apply,
    val_main_v67_apply, val_main_v66_apply, val_main_v70_apply, val_main_v69_apply, val_main_call2_v0_apply, val_main_call2_cst_apply, val_main_cst_11_apply]
  simp only [eC, eM, eG, eBe, pre1_entry, mean1_entry, var1_entry]
  rfl

end

end Cert.RefRows

end
-- ==== Proof.Feat1.lean ====
/-
  After layer 1's region the feature matrix is the reference's.

  The region's output array is the layer's row map applied to every row of the arrays it finds at its entry: the feature
  matrix the previous region left (the reference's, by the previous step), the averaged neighbour features the host
  stretch computed from it (the reference's aggregate of the same matrix along the same edges), the layer's two weight
  matrices and its bias, scale and shift rows (the reference's slices of the same stacked parameters, a row being the
  length-64 slice recast). The reference computes the same row map with matrix products against transposed weights,
  broadcasts and row reductions; read at an entry, both are one expression of the same rows and parameters.
-/
import proofs.«134528_j43946105373340_1_alg».proof.Proof.Region1Value
import proofs.«134528_j43946105373340_1_alg».proof.Proof.Feat0
import proofs.«134528_j43946105373340_1_alg».proof.Proof.RefLayer1

set_option maxRecDepth 16384

noncomputable section

namespace Cert.KernelIdeal.Net

open Cert.KernelIdeal Cert.KernelIdeal.Gen Cert.NodeRows
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The reciprocal in-degrees at this boundary are the reference's stage of the destination indices found there. -/
theorem invdeg_W4 :
    W4 m ρ c (Proc.devRef .tc main_v11) = Cert.ReferenceIdeal.ReadP.val_main_v11 (F := Ideal) (W4 m ρ c (Proc.devRef .tc main_arg2)) := by
  rw [Carry.W4_main_v11 m ρ c, Carry.W4_main_arg2 m ρ c]
  exact invdeg3 m ρ c

/-- A parameter row the region reads, at an entry, is the reference's length-64 slice at that entry. -/
theorem row_b1 (j : Fin 64) : V5 m ρ c main_v36 (ix2 (0 : Fin 1) j) = Cert.ReferenceIdeal.ReadP.val_main_v40 (F := Ideal) (m ((c : Thread nD τ).loc main_arg7)) (ix1 j) := by
  show StableHlo.after (hostOps1 (F := Ideal)) (W4 m ρ c) (Proc.devRef .tc main_v36) (ix2 (0 : Fin 1) j) = _
  rw [Stretch.s1_b (W4 m ρ c), shapeCast_a_1a_apply, Carry.W4_main_arg7 m ρ c]
theorem row_g1 (j : Fin 64) : V5 m ρ c main_v37 (ix2 (0 : Fin 1) j) = Cert.ReferenceIdeal.ReadP.val_main_v45 (F := Ideal) (m ((c : Thread nD τ).loc main_arg8)) (ix1 j) := by
  show StableHlo.after (hostOps1 (F := Ideal)) (W4 m ρ c) (Proc.devRef .tc main_v37) (ix2 (0 : Fin 1) j) = _
  rw [Stretch.s1_g (W4 m ρ c), shapeCast_a_1a_apply, Carry.W4_main_arg8 m ρ c]
theorem row_be1 (j : Fin 64) : V5 m ρ c main_v38 (ix2 (0 : Fin 1) j) = Cert.ReferenceIdeal.ReadP.val_main_v47 (F := Ideal) (m ((c : Thread nD τ).loc main_arg9)) (ix1 j) := by
  show StableHlo.after (hostOps1 (F := Ideal)) (W4 m ρ c) (Proc.devRef .tc main_v38) (ix2 (0 : Fin 1) j) = _
  rw [Stretch.s1_be (W4 m ρ c), shapeCast_a_1a_apply, Carry.W4_main_arg9 m ρ c]

/-- The feature matrix the region reads is the one the previous region left. -/
theorem in_h1 : V5 m ρ c main_v13 = Cert.ReferenceIdeal.ReadP.val_main_v17 (F := Ideal) (m ((c : Thread nD τ).loc main_arg0)) (m ((c : Thread nD τ).loc main_arg3)) (m ((c : Thread nD τ).loc main_arg4)) :=
  (Carry.s1_main_v13 (W4 m ρ c)).trans (feat0 m ρ c)

/-- The neighbour features the region reads are the reference's aggregate of that matrix. -/
theorem in_nm1 : V5 m ρ c main_v25 = Cert.ReferenceIdeal.ReadP.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (Stretch.s1_nm (W4 m ρ c) (invdeg_W4 m ρ c)).trans ?_
  rw [feat0 m ρ c, Carry.W4_main_arg1 m ρ c, Carry.W4_main_arg2 m ρ c]
  exact (Cert.RefNet.agg1 (m ((c : Thread nD τ).loc main_arg0)) (m ((c : Thread nD τ).loc main_arg1)) (m ((c : Thread nD τ).loc main_arg2)) (m ((c : Thread nD τ).loc main_arg3)) (m ((c : Thread nD τ).loc main_arg4))).symm

theorem in_ws1 : V5 m ρ c main_v27 = Cert.ReferenceIdeal.ReadP.val_main_v31 (F := Ideal) (m ((c : Thread nD τ).loc main_arg5)) := by
  refine (Stretch.s1_ws (W4 m ρ c)).trans ?_
  rw [Carry.W4_main_arg5 m ρ c]
theorem in_wn1 : V5 m ρ c main_v29 = Cert.ReferenceIdeal.ReadP.val_main_v35 (F := Ideal) (m ((c : Thread nD τ).loc main_arg6)) := by
  refine (Stretch.s1_wn (W4 m ρ c)).trans ?_
  rw [Carry.W4_main_arg6 m ρ c]

set_option maxHeartbeats 4000000 in
/-- THE FEATURE MATRIX AFTER LAYER 1'S REGION is the reference's. -/
theorem feat1 :
    W6 m ρ c (Proc.devRef .tc main_v39) = Cert.ReferenceIdeal.ReadP.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 7).trans ?_
  refine (Region1.final (V5 m ρ) c).trans ?_
  funext i
  obtain ⟨r, j, rfl⟩ : ∃ (r : Fin 100000) (j : Fin 64), i = ix2 r j := ⟨i 0, i 1, eq_ix2 i⟩
  rw [layerArr_apply]
  refine Eq.trans ?_ (Cert.RefRows.layer1_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r j).symm
  unfold layerAt
  have eh : V5 m ρ c (Pipeline.arrRef spec1 0) = _ := in_h1 m ρ c
  have en : V5 m ρ c (Pipeline.arrRef spec1 1) = _ := in_nm1 m ρ c
  have ews : V5 m ρ c (Pipeline.arrRef spec1 2) = _ := in_ws1 m ρ c
  have ewn : V5 m ρ c (Pipeline.arrRef spec1 3) = _ := in_wn1 m ρ c
  have eb : ∀ j : Fin 64, V5 m ρ c (Pipeline.arrRef spec1 4) (ix2 (0 : Fin 1) j) = _ := row_b1 m ρ c
  have eg : ∀ j : Fin 64, V5 m ρ c (Pipeline.arrRef spec1 5) (ix2 (0 : Fin 1) j) = _ := row_g1 m ρ c
  have ebe : ∀ j : Fin 64, V5 m ρ c (Pipeline.arrRef spec1 6) (ix2 (0 : Fin 1) j) = _ := row_be1 m ρ c
  rw [eh, en, ews, ewn]
  simp only [eb, eg, ebe]

end Cert.KernelIdeal.Net

end
-- ==== Proof.RefLayer2.lean ====
/-
  The reference's second layer, read at one entry.

  The reference multiplies the node features and the averaged neighbour features by the transposed weight
  matrices, adds the bias row, normalises every row over its 64 features (mean, mean squared deviation,
  reciprocal square root), scales and shifts by the two parameter rows, takes the maximum with the zero word and
  adds the layer's input back.  At row `r`, column `j` this is entry `j` of the layer applied to the rows of
  node `r`.  The two sums over the features start from the zero word, which adds nothing.
-/
import proofs.«134528_j43946105373340_1_alg».proof.Proof.RefReadP
import proofs.«134528_j43946105373340_1_alg».proof.Proof.NodeRows
import Idealize.ShloMosaic.Lib.ValueIdx
import Idealize.ShloMosaic.PureOps.Ideal.Laws

noncomputable section

open scoped BigOperators

namespace Cert.RefRows

open Cert.ReferenceIdeal Cert.ReferenceIdeal.ReadP Cert.NodeRows Idealize.ShloMosaic Idealize.ShloMosaic.ValueIdx

section

variable
  (x0 : (⟨S100000x8, .f32⟩ : BufTy).Contents (Elt Ideal))
  (x1 x2 : (⟨S3200000, .i32⟩ : BufTy).Contents (Elt Ideal))
  (x3 : (⟨S64x8, .f32⟩ : BufTy).Contents (Elt Ideal))
  (x4 : (⟨S64, .f32⟩ : BufTy).Contents (Elt Ideal))
  (x5 x6 : (⟨S3x64x64, .f32⟩ : BufTy).Contents (Elt Ideal))
  (x7 x8 x9 : (⟨S3x64, .f32⟩ : BufTy).Contents (Elt Ideal))

/-- The row of node `r` entering the normalisation: own and neighbour features through the weight matrices, plus the bias. -/
def preRow2 (r : Fin 100000) : Fin 64 → EReal :=
  pre (fun k => val_main_v73 (F := Ideal) x0 x1 x2 x3 x4 x5 x6 x7 x8 x9 (ix2 r k)) (fun k => val_main_v85 (F := Ideal) x0 x1 x2 x3 x4 x5 x6 x7 x8 x9 (ix2 r k))
    (fun j k => val_main_v87 (F := Ideal) x5 (ix2 j k)) (fun j k => val_main_v91 (F := Ideal) x6 (ix2 j k)) (fun j => val_main_v96 (F := Ideal) x7 (ix1 j))

/-- Entry `(r, j)` before normalisation: the two matrix products read through the transposes, and the bias row. -/
theorem pre2_entry (r : Fin 100000) (j : Fin 64) :
    val_main_v99 (F := Ideal) x0 x1 x2 x3 x4 x5 x6 x7 x8 x9 (ix2 r j) = preRow2 x0 x1 x2 x3 x4 x5 x6 x7 x8 x9 r j := by
  have eL : ∀ k : Fin 64, lidx_main_v89 (ix2 r j) k = ix2 r k := fun k => funext fun a => Fin.ext (by match a with | ⟨0, _⟩ => rfl | ⟨1, _⟩ => rfl)
  have eR : ∀ k : Fin 64, idx_main_v88 (ridx_main_v89 (ix2 r j) k) = ix2 j k := fun k => funext fun a => Fin.ext (by match a with | ⟨0, _⟩ => rfl | ⟨1, _⟩ => rfl)
  have eL' : ∀ k : Fin 64, lidx_main_v93 (ix2 r j) k = ix2 r k := fun k => funext fun a => Fin.ext (by match a with | ⟨0, _⟩ => rfl | ⟨1, _⟩ => rfl)
  have eR' : ∀ k : Fin 64, idx_main_v92 (ridx_main_v93 (ix2 r j) k) = ix2 j k := fun k => funext fun a => Fin.ext (by match a with | ⟨0, _⟩ => rfl | ⟨1, _⟩ => rfl)
  have eB : idx_main_v97 (idx_main_v98 (ix2 r j)) = ix1 j := funext fun a => Fin.ext (by match a with | ⟨0, _⟩ => rfl)
  rw [val_main_v99_apply, val_main_v94_apply, val_main_v89_apply, val_main_v93_apply, val_main_v98_apply, val_main_v97_apply]
  simp only [val_main_v88_apply, val_main_v92_apply, eL, eR, eL', eR', eB]
  rfl

/-- The mean column at row `r` is the mean of that row. -/
theorem mean2_entry (r : Fin 100000) :
    val_main_v107 (F := Ideal) x0 x1 x2 x3 x4 x5 x6 x7 x8 x9 (ix2 r (0 : Fin 1)) = mean (preRow2 x0 x1 x2 x3 x4 x5 x6 x7 x8 x9 r) := by
  have e : ∀ k : Fin 64, idx_main_v104 (idx_main_v105 (ix2 r (0 : Fin 1))) k = ix2 r k := fun k => funext fun a => Fin.ext (by match a with | ⟨0, _⟩ => rfl | ⟨1, _⟩ => rfl)
  rw [val_main_v107_apply, val_main_v105_apply, val_main_v104_apply, val_main_v106_apply, val_main_cst_15_apply, val_main_cst_16_apply]
  simp only [e, pre2_entry, Ideal.ofBits_def, Ideal.ofBits_zero_f32, zero_add]
  rfl

/-- The mean-squared-deviation column at row `r` is the variance of that row. -/
theorem var2_entry (r : Fin 100000) :
    val_main_v114 (F := Ideal) x0 x1 x2 x3 x4 x5 x6 x7 x8 x9 (ix2 r (0 : Fin 1)) = variance (preRow2 x0 x1 x2 x3 x4 x5 x6 x7 x8 x9 r) := by
  have e : ∀ k : Fin 64, idx_main_v111 (idx_main_v112 (ix2 r (0 : Fin 1))) k = ix2 r k := fun k => funext fun a => Fin.ext (by match a with | ⟨0, _⟩ => rfl | ⟨1, _⟩ => rfl)
  have eM : ∀ k : Fin 64, idx_main_v108 (ix2 r k) = ix2 r (0 : Fin 1) := fun k => funext fun a => Fin.ext (by match a with | ⟨0, _⟩ => rfl | ⟨1, _⟩ => rfl)
  rw [val_main_v114_apply, val_main_v112_apply, val_main_v111_apply, val_main_v113_apply, val_main_cst_17_apply, val_main_cst_18_apply]
  simp only [e, val_main_v110_apply, val_main_v109_apply, val_main_v108_apply, eM, pre2_entry, mean2_entry, Ideal.ofBits_def, Ideal.ofBits_zero_f32, zero_add]
  rfl

/-- Entry `(r, j)` of the layer's output is entry `j` of the layer applied to the rows of node `r`. -/
theorem layer2_entry (r : Fin 100000) (j : Fin 64) :
    val_main_v129 (F := Ideal) x0 x1 x2 x3 x4 x5 x6 x7 x8 x9 (ix2 r j)
      = layerRow (fun k => val_main_v73 (F := Ideal) x0 x1 x2 x3 x4 x5 x6 x7 x8 x9 (ix2 r k)) (fun k => val_main_v85 (F := Ideal) x0 x1 x2 x3 x4 x5 x6 x7 x8 x9 (ix2 r k))
          (fun j k => val_main_v87 (F := Ideal) x5 (ix2 j k)) (fun j k => val_main_v91 (F := Ideal) x6 (ix2 j k))
          (fun j => val_main_v96 (F := Ideal) x7 (ix1 j)) (fun j => val_main_v101 (F := Ideal) x8 (ix1 j)) (fun j => val_main_v103 (F := Ideal) x9 (ix1 j)) j := by
  have eC : idx_main_v120 (ix2 r j) = ix2 r (0 : Fin 1) := funext fun a => Fin.ext (by match a with | ⟨0, _⟩ => rfl | ⟨1, _⟩ => rfl)
  have eM : idx_main_v115 (ix2 r j) = ix2 r (0 : Fin 1) := funext fun a => Fin.ext (by match a with | ⟨0, _⟩ => rfl | ⟨1, _⟩ => rfl)
  have eG : idx_main_v122 (idx_main_v123 (ix2 r j)) = ix1 j := funext fun a => Fin.ext (by match a with | ⟨0, _⟩ => rfl)
  have eBe : idx_main_v125 (idx_main_v126 (ix2 r j)) = ix1 j := funext fun a => Fin.ext (by match a with | ⟨0, _⟩ => rfl)
  rw [val_main_v129_apply, val_main_v128_apply, val_main_v127_apply, val_main_v124_apply, val_main_v121_apply, val_main_v116_apply, val_main_v115_apply, val_main_v120_apply, val_main_v119_apply, val_main_v118_apply, val_main_v117_apply,
    val_main_v123_apply, val_main_v122_apply, val_main_v126_apply, val_main_v125_apply, val_main_call3_v0_apply, val_main_call3_cst_apply, val_main_cst_19_apply]
  simp only [eC, eM, eG, eBe, pre2_entry, mean2_entry, var2_entry]
  rfl

end

end Cert.RefRows

end
-- ==== Proof.Feat2.lean ====
/-
  After layer 2's region the feature matrix is the reference's.

  The region's output array is the layer's row map applied to every row of the arrays it finds at its entry: the feature
  matrix the previous region left (the reference's, by the previous step), the averaged neighbour features the host
  stretch computed from it (the reference's aggregate of the same matrix along the same edges), the layer's two weight
  matrices and its bias, scale and shift rows (the reference's slices of the same stacked parameters, a row being the
  length-64 slice recast). The reference computes the same row map with matrix products against transposed weights,
  broadcasts and row reductions; read at an entry, both are one expression of the same rows and parameters.
-/
import proofs.«134528_j43946105373340_1_alg».proof.Proof.Region2Value
import proofs.«134528_j43946105373340_1_alg».proof.Proof.Feat1
import proofs.«134528_j43946105373340_1_alg».proof.Proof.RefLayer2

set_option maxRecDepth 16384

noncomputable section

namespace Cert.KernelIdeal.Net

open Cert.KernelIdeal Cert.KernelIdeal.Gen Cert.NodeRows
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The reciprocal in-degrees at this boundary are the reference's stage of the destination indices found there. -/
theorem invdeg_W6 :
    W6 m ρ c (Proc.devRef .tc main_v11) = Cert.ReferenceIdeal.ReadP.val_main_v11 (F := Ideal) (W6 m ρ c (Proc.devRef .tc main_arg2)) := by
  rw [Carry.W6_main_v11 m ρ c, Carry.W6_main_arg2 m ρ c]
  exact invdeg3 m ρ c

/-- A parameter row the region reads, at an entry, is the reference's length-64 slice at that entry. -/
theorem row_b2 (j : Fin 64) : V7 m ρ c main_v62 (ix2 (0 : Fin 1) j) = Cert.ReferenceIdeal.ReadP.val_main_v96 (F := Ideal) (m ((c : Thread nD τ).loc main_arg7)) (ix1 j) := by
  show StableHlo.after (hostOps2 (F := Ideal)) (W6 m ρ c) (Proc.devRef .tc main_v62) (ix2 (0 : Fin 1) j) = _
  rw [Stretch.s2_b (W6 m ρ c), shapeCast_a_1a_apply, Carry.W6_main_arg7 m ρ c]
theorem row_g2 (j : Fin 64) : V7 m ρ c main_v63 (ix2 (0 : Fin 1) j) = Cert.ReferenceIdeal.ReadP.val_main_v101 (F := Ideal) (m ((c : Thread nD τ).loc main_arg8)) (ix1 j) := by
  show StableHlo.after (hostOps2 (F := Ideal)) (W6 m ρ c) (Proc.devRef .tc main_v63) (ix2 (0 : Fin 1) j) = _
  rw [Stretch.s2_g (W6 m ρ c), shapeCast_a_1a_apply, Carry.W6_main_arg8 m ρ c]
theorem row_be2 (j : Fin 64) : V7 m ρ c main_v64 (ix2 (0 : Fin 1) j) = Cert.ReferenceIdeal.ReadP.val_main_v103 (F := Ideal) (m ((c : Thread nD τ).loc main_arg9)) (ix1 j) := by
  show StableHlo.after (hostOps2 (F := Ideal)) (W6 m ρ c) (Proc.devRef .tc main_v64) (ix2 (0 : Fin 1) j) = _
  rw [Stretch.s2_be (W6 m ρ c), shapeCast_a_1a_apply, Carry.W6_main_arg9 m ρ c]

/-- The feature matrix the region reads is the one the previous region left. -/
theorem in_h2 : V7 m ρ c main_v39 = Cert.ReferenceIdeal.ReadP.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (Carry.s2_main_v39 (W6 m ρ c)).trans (feat1 m ρ c)

/-- The neighbour features the region reads are the reference's aggregate of that matrix. -/
theorem in_nm2 : V7 m ρ c main_v51 = Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (Stretch.s2_nm (W6 m ρ c) (invdeg_W6 m ρ c)).trans ?_
  rw [feat1 m ρ c, Carry.W6_main_arg1 m ρ c, Carry.W6_main_arg2 m ρ c]
  exact (Cert.RefNet.agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

theorem in_ws2 : V7 m ρ c main_v53 = Cert.ReferenceIdeal.ReadP.val_main_v87 (F := Ideal) (m ((c : Thread nD τ).loc main_arg5)) := by
  refine (Stretch.s2_ws (W6 m ρ c)).trans ?_
  rw [Carry.W6_main_arg5 m ρ c]
theorem in_wn2 : V7 m ρ c main_v55 = Cert.ReferenceIdeal.ReadP.val_main_v91 (F := Ideal) (m ((c : Thread nD τ).loc main_arg6)) := by
  refine (Stretch.s2_wn (W6 m ρ c)).trans ?_
  rw [Carry.W6_main_arg6 m ρ c]

set_option maxHeartbeats 4000000 in
/-- THE FEATURE MATRIX AFTER LAYER 2'S REGION is the reference's. -/
theorem feat2 :
    W8 m ρ c (Proc.devRef .tc main_v65) = Cert.ReferenceIdeal.ReadP.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 7).trans ?_
  refine (Region2.final (V7 m ρ) c).trans ?_
  funext i
  obtain ⟨r, j, rfl⟩ : ∃ (r : Fin 100000) (j : Fin 64), i = ix2 r j := ⟨i 0, i 1, eq_ix2 i⟩
  rw [layerArr_apply]
  refine Eq.trans ?_ (Cert.RefRows.layer2_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r j).symm
  unfold layerAt
  have eh : V7 m ρ c (Pipeline.arrRef spec2 0) = _ := in_h2 m ρ c
  have en : V7 m ρ c (Pipeline.arrRef spec2 1) = _ := in_nm2 m ρ c
  have ews : V7 m ρ c (Pipeline.arrRef spec2 2) = _ := in_ws2 m ρ c
  have ewn : V7 m ρ c (Pipeline.arrRef spec2 3) = _ := in_wn2 m ρ c
  have eb : ∀ j : Fin 64, V7 m ρ c (Pipeline.arrRef spec2 4) (ix2 (0 : Fin 1) j) = _ := row_b2 m ρ c
  have eg : ∀ j : Fin 64, V7 m ρ c (Pipeline.arrRef spec2 5) (ix2 (0 : Fin 1) j) = _ := row_g2 m ρ c
  have ebe : ∀ j : Fin 64, V7 m ρ c (Pipeline.arrRef spec2 6) (ix2 (0 : Fin 1) j) = _ := row_be2 m ρ c
  rw [eh, en, ews, ewn]
  simp only [eb, eg, ebe]

end Cert.KernelIdeal.Net

end
-- ==== Proof.RefLayer3.lean ====
/-
  The reference's third layer, read at one entry.

  The reference multiplies the node features and the averaged neighbour features by the transposed weight
  matrices, adds the bias row, normalises every row over its 64 features (mean, mean squared deviation,
  reciprocal square root), scales and shifts by the two parameter rows, takes the maximum with the zero word and
  adds the layer's input back.  At row `r`, column `j` this is entry `j` of the layer applied to the rows of
  node `r`.  The two sums over the features start from the zero word, which adds nothing.
-/
import proofs.«134528_j43946105373340_1_alg».proof.Proof.RefReadP
import proofs.«134528_j43946105373340_1_alg».proof.Proof.NodeRows
import Idealize.ShloMosaic.Lib.ValueIdx
import Idealize.ShloMosaic.PureOps.Ideal.Laws

noncomputable section

open scoped BigOperators

namespace Cert.RefRows

open Cert.ReferenceIdeal Cert.ReferenceIdeal.ReadP Cert.NodeRows Idealize.ShloMosaic Idealize.ShloMosaic.ValueIdx

section

variable
  (x0 : (⟨S100000x8, .f32⟩ : BufTy).Contents (Elt Ideal))
  (x1 x2 : (⟨S3200000, .i32⟩ : BufTy).Contents (Elt Ideal))
  (x3 : (⟨S64x8, .f32⟩ : BufTy).Contents (Elt Ideal))
  (x4 : (⟨S64, .f32⟩ : BufTy).Contents (Elt Ideal))
  (x5 x6 : (⟨S3x64x64, .f32⟩ : BufTy).Contents (Elt Ideal))
  (x7 x8 x9 : (⟨S3x64, .f32⟩ : BufTy).Contents (Elt Ideal))

/-- The row of node `r` entering the normalisation: own and neighbour features through the weight matrices, plus the bias. -/
def preRow3 (r : Fin 100000) : Fin 64 → EReal :=
  pre (fun k => val_main_v129 (F := Ideal) x0 x1 x2 x3 x4 x5 x6 x7 x8 x9 (ix2 r k)) (fun k => val_main_v141 (F := Ideal) x0 x1 x2 x3 x4 x5 x6 x7 x8 x9 (ix2 r k))
    (fun j k => val_main_v143 (F := Ideal) x5 (ix2 j k)) (fun j k => val_main_v147 (F := Ideal) x6 (ix2 j k)) (fun j => val_main_v152 (F := Ideal) x7 (ix1 j))

/-- Entry `(r, j)` before normalisation: the two matrix products read through the transposes, and the bias row. -/
theorem pre3_entry (r : Fin 100000) (j : Fin 64) :
    val_main_v155 (F := Ideal) x0 x1 x2 x3 x4 x5 x6 x7 x8 x9 (ix2 r j) = preRow3 x0 x1 x2 x3 x4 x5 x6 x7 x8 x9 r j := by
  have eL : ∀ k : Fin 64, lidx_main_v145 (ix2 r j) k = ix2 r k := fun k => funext fun a => Fin.ext (by match a with | ⟨0, _⟩ => rfl | ⟨1, _⟩ => rfl)
  have eR : ∀ k : Fin 64, idx_main_v144 (ridx_main_v145 (ix2 r j) k) = ix2 j k := fun k => funext fun a => Fin.ext (by match a with | ⟨0, _⟩ => rfl | ⟨1, _⟩ => rfl)
  have eL' : ∀ k : Fin 64, lidx_main_v149 (ix2 r j) k = ix2 r k := fun k => funext fun a => Fin.ext (by match a with | ⟨0, _⟩ => rfl | ⟨1, _⟩ => rfl)
  have eR' : ∀ k : Fin 64, idx_main_v148 (ridx_main_v149 (ix2 r j) k) = ix2 j k := fun k => funext fun a => Fin.ext (by match a with | ⟨0, _⟩ => rfl | ⟨1, _⟩ => rfl)
  have eB : idx_main_v153 (idx_main_v154 (ix2 r j)) = ix1 j := funext fun a => Fin.ext (by match a with | ⟨0, _⟩ => rfl)
  rw [val_main_v155_apply, val_main_v150_apply, val_main_v145_apply, val_main_v149_apply, val_main_v154_apply, val_main_v153_apply]
  simp only [val_main_v144_apply, val_main_v148_apply, eL, eR, eL', eR', eB]
  rfl

/-- The mean column at row `r` is the mean of that row. -/
theorem mean3_entry (r : Fin 100000) :
    val_main_v163 (F := Ideal) x0 x1 x2 x3 x4 x5 x6 x7 x8 x9 (ix2 r (0 : Fin 1)) = mean (preRow3 x0 x1 x2 x3 x4 x5 x6 x7 x8 x9 r) := by
  have e : ∀ k : Fin 64, idx_main_v160 (idx_main_v161 (ix2 r (0 : Fin 1))) k = ix2 r k := fun k => funext fun a => Fin.ext (by match a with | ⟨0, _⟩ => rfl | ⟨1, _⟩ => rfl)
  rw [val_main_v163_apply, val_main_v161_apply, val_main_v160_apply, val_main_v162_apply, val_main_cst_23_apply, val_main_cst_24_apply]
  simp only [e, pre3_entry, Ideal.ofBits_def, Ideal.ofBits_zero_f32, zero_add]
  rfl

/-- The mean-squared-deviation column at row `r` is the variance of that row. -/
theorem var3_entry (r : Fin 100000) :
    val_main_v170 (F := Ideal) x0 x1 x2 x3 x4 x5 x6 x7 x8 x9 (ix2 r (0 : Fin 1)) = variance (preRow3 x0 x1 x2 x3 x4 x5 x6 x7 x8 x9 r) := by
  have e : ∀ k : Fin 64, idx_main_v167 (idx_main_v168 (ix2 r (0 : Fin 1))) k = ix2 r k := fun k => funext fun a => Fin.ext (by match a with | ⟨0, _⟩ => rfl | ⟨1, _⟩ => rfl)
  have eM : ∀ k : Fin 64, idx_main_v164 (ix2 r k) = ix2 r (0 : Fin 1) := fun k => funext fun a => Fin.ext (by match a with | ⟨0, _⟩ => rfl | ⟨1, _⟩ => rfl)
  rw [val_main_v170_apply, val_main_v168_apply, val_main_v167_apply, val_main_v169_apply, val_main_cst_25_apply, val_main_cst_26_apply]
  simp only [e, val_main_v166_apply, val_main_v165_apply, val_main_v164_apply, eM, pre3_entry, mean3_entry, Ideal.ofBits_def, Ideal.ofBits_zero_f32, zero_add]
  rfl

/-- Entry `(r, j)` of the layer's output is entry `j` of the layer applied to the rows of node `r`. -/
theorem layer3_entry (r : Fin 100000) (j : Fin 64) :
    val_main_v185 (F := Ideal) x0 x1 x2 x3 x4 x5 x6 x7 x8 x9 (ix2 r j)
      = layerRow (fun k => val_main_v129 (F := Ideal) x0 x1 x2 x3 x4 x5 x6 x7 x8 x9 (ix2 r k)) (fun k => val_main_v141 (F := Ideal) x0 x1 x2 x3 x4 x5 x6 x7 x8 x9 (ix2 r k))
          (fun j k => val_main_v143 (F := Ideal) x5 (ix2 j k)) (fun j k => val_main_v147 (F := Ideal) x6 (ix2 j k))
          (fun j => val_main_v152 (F := Ideal) x7 (ix1 j)) (fun j => val_main_v157 (F := Ideal) x8 (ix1 j)) (fun j => val_main_v159 (F := Ideal) x9 (ix1 j)) j := by
  have eC : idx_main_v176 (ix2 r j) = ix2 r (0 : Fin 1) := funext fun a => Fin.ext (by match a with | ⟨0, _⟩ => rfl | ⟨1, _⟩ => rfl)
  have eM : idx_main_v171 (ix2 r j) = ix2 r (0 : Fin 1) := funext fun a => Fin.ext (by match a with | ⟨0, _⟩ => rfl | ⟨1, _⟩ => rfl)
  have eG : idx_main_v178 (idx_main_v179 (ix2 r j)) = ix1 j := funext fun a => Fin.ext (by match a with | ⟨0, _⟩ => rfl)
  have eBe : idx_main_v181 (idx_main_v182 (ix2 r j)) = ix1 j := funext fun a => Fin.ext (by match a with | ⟨0, _⟩ => rfl)
  rw [val_main_v185_apply, val_main_v184_apply, val_main_v183_apply, val_main_v180_apply, val_main_v177_apply, val_main_v172_apply, val_main_v171_apply, val_main_v176_apply, val_main_v175_apply, val_main_v174_apply, val_main_v173_apply,
    val_main_v179_apply, val_main_v178_apply, val_main_v182_apply, val_main_v181_apply, val_main_call4_v0_apply, val_main_call4_cst_apply, val_main_cst_27_apply]
  simp only [eC, eM, eG, eBe, pre3_entry, mean3_entry, var3_entry]
  rfl

end

end Cert.RefRows

end
-- ==== Proof.Feat3.lean ====
/-
  After layer 3's region the feature matrix is the reference's.

  The region's output array is the layer's row map applied to every row of the arrays it finds at its entry: the feature
  matrix the previous region left (the reference's, by the previous step), the averaged neighbour features the host
  stretch computed from it (the reference's aggregate of the same matrix along the same edges), the layer's two weight
  matrices and its bias, scale and shift rows (the reference's slices of the same stacked parameters, a row being the
  length-64 slice recast). The reference computes the same row map with matrix products against transposed weights,
  broadcasts and row reductions; read at an entry, both are one expression of the same rows and parameters.
-/
import proofs.«134528_j43946105373340_1_alg».proof.Proof.Region3Value
import proofs.«134528_j43946105373340_1_alg».proof.Proof.Feat2
import proofs.«134528_j43946105373340_1_alg».proof.Proof.RefLayer3

set_option maxRecDepth 16384

noncomputable section

namespace Cert.KernelIdeal.Net

open Cert.KernelIdeal Cert.KernelIdeal.Gen Cert.NodeRows
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The reciprocal in-degrees at this boundary are the reference's stage of the destination indices found there. -/
theorem invdeg_W8 :
    W8 m ρ c (Proc.devRef .tc main_v11) = Cert.ReferenceIdeal.ReadP.val_main_v11 (F := Ideal) (W8 m ρ c (Proc.devRef .tc main_arg2)) := by
  rw [Carry.W8_main_v11 m ρ c, Carry.W8_main_arg2 m ρ c]
  exact invdeg3 m ρ c

/-- A parameter row the region reads, at an entry, is the reference's length-64 slice at that entry. -/
theorem row_b3 (j : Fin 64) : V9 m ρ c main_v88 (ix2 (0 : Fin 1) j) = Cert.ReferenceIdeal.ReadP.val_main_v152 (F := Ideal) (m ((c : Thread nD τ).loc main_arg7)) (ix1 j) := by
  show StableHlo.after (hostOps3 (F := Ideal)) (W8 m ρ c) (Proc.devRef .tc main_v88) (ix2 (0 : Fin 1) j) = _
  rw [Stretch.s3_b (W8 m ρ c), shapeCast_a_1a_apply, Carry.W8_main_arg7 m ρ c]
theorem row_g3 (j : Fin 64) : V9 m ρ c main_v89 (ix2 (0 : Fin 1) j) = Cert.ReferenceIdeal.ReadP.val_main_v157 (F := Ideal) (m ((c : Thread nD τ).loc main_arg8)) (ix1 j) := by
  show StableHlo.after (hostOps3 (F := Ideal)) (W8 m ρ c) (Proc.devRef .tc main_v89) (ix2 (0 : Fin 1) j) = _
  rw [Stretch.s3_g (W8 m ρ c), shapeCast_a_1a_apply, Carry.W8_main_arg8 m ρ c]
theorem row_be3 (j : Fin 64) : V9 m ρ c main_v90 (ix2 (0 : Fin 1) j) = Cert.ReferenceIdeal.ReadP.val_main_v159 (F := Ideal) (m ((c : Thread nD τ).loc main_arg9)) (ix1 j) := by
  show StableHlo.after (hostOps3 (F := Ideal)) (W8 m ρ c) (Proc.devRef .tc main_v90) (ix2 (0 : Fin 1) j) = _
  rw [Stretch.s3_be (W8 m ρ c), shapeCast_a_1a_apply, Carry.W8_main_arg9 m ρ c]

/-- The feature matrix the region reads is the one the previous region left. -/
theorem in_h3 : V9 m ρ c main_v65 = Cert.ReferenceIdeal.ReadP.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (Carry.s3_main_v65 (W8 m ρ c)).trans (feat2 m ρ c)

/-- The neighbour features the region reads are the reference's aggregate of that matrix. -/
theorem in_nm3 : V9 m ρ c main_v77 = Cert.ReferenceIdeal.ReadP.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (Stretch.s3_nm (W8 m ρ c) (invdeg_W8 m ρ c)).trans ?_
  rw [feat2 m ρ c, Carry.W8_main_arg1 m ρ c, Carry.W8_main_arg2 m ρ c]
  exact (Cert.RefNet.agg3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

theorem in_ws3 : V9 m ρ c main_v79 = Cert.ReferenceIdeal.ReadP.val_main_v143 (F := Ideal) (m ((c : Thread nD τ).loc main_arg5)) := by
  refine (Stretch.s3_ws (W8 m ρ c)).trans ?_
  rw [Carry.W8_main_arg5 m ρ c]
theorem in_wn3 : V9 m ρ c main_v81 = Cert.ReferenceIdeal.ReadP.val_main_v147 (F := Ideal) (m ((c : Thread nD τ).loc main_arg6)) := by
  refine (Stretch.s3_wn (W8 m ρ c)).trans ?_
  rw [Carry.W8_main_arg6 m ρ c]

set_option maxHeartbeats 4000000 in
/-- THE FEATURE MATRIX AFTER LAYER 3'S REGION is the reference's. -/
theorem feat3 :
    W10 m ρ c (Proc.devRef .tc main_v91) = Cert.ReferenceIdeal.ReadP.val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 7).trans ?_
  refine (Region3.final (V9 m ρ) c).trans ?_
  funext i
  obtain ⟨r, j, rfl⟩ : ∃ (r : Fin 100000) (j : Fin 64), i = ix2 r j := ⟨i 0, i 1, eq_ix2 i⟩
  rw [layerArr_apply]
  refine Eq.trans ?_ (Cert.RefRows.layer3_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r j).symm
  unfold layerAt
  have eh : V9 m ρ c (Pipeline.arrRef spec3 0) = _ := in_h3 m ρ c
  have en : V9 m ρ c (Pipeline.arrRef spec3 1) = _ := in_nm3 m ρ c
  have ews : V9 m ρ c (Pipeline.arrRef spec3 2) = _ := in_ws3 m ρ c
  have ewn : V9 m ρ c (Pipeline.arrRef spec3 3) = _ := in_wn3 m ρ c
  have eb : ∀ j : Fin 64, V9 m ρ c (Pipeline.arrRef spec3 4) (ix2 (0 : Fin 1) j) = _ := row_b3 m ρ c
  have eg : ∀ j : Fin 64, V9 m ρ c (Pipeline.arrRef spec3 5) (ix2 (0 : Fin 1) j) = _ := row_g3 m ρ c
  have ebe : ∀ j : Fin 64, V9 m ρ c (Pipeline.arrRef spec3 6) (ix2 (0 : Fin 1) j) = _ := row_be3 m ρ c
  rw [eh, en, ews, ewn]
  simp only [eb, eg, ebe]

end Cert.KernelIdeal.Net

end
-- ==== Proof.lean ====
/-
  The certificate of a three-layer graph network: a tiled kernel against its plain reference.

  THE TWO PROGRAMS. Both take a 100000 × 8 matrix of node inputs, 3200000 edges (source and destination node indices),
  an input projection (64 × 8 weights, bias) and, for each of three layers, two 64 × 64 weight matrices and a bias, a
  scale and a shift of length 64. Both first count each node's incoming edges and keep the reciprocal (zero for none);
  project and rectify the inputs to a 100000 × 64 feature matrix; and then three times: gather each edge's source row,
  add the gathered rows into the destination rows, scale by the reciprocal in-degree (the averaged neighbour features),
  and send every node's row `h`, with its neighbour row `n`, to
      `h + max (((s − μ) · rsqrt (σ² + ε)) · γ + β) 0`,   `s = (h · Wsᵀ + n · Wnᵀ) + bias`,
  μ and σ² the mean and the mean squared deviation of the 64 entries of `s`. The kernel computes the projection and the
  three layers in four tiled regions (twenty blocks of 5000 rows each, the small operands whole at every point); the
  reference computes them with whole-array host operations. Everything edge-indexed is host code in both, operation for
  operation the same.

  WHY THEY AGREE on the extended reals. A change of float format is the identity there, so the kernel's narrowing of
  its matrix operands changes nothing; a block product into a zero accumulator and a whole-array product are the same
  finite sums, as are a lane reduction and a host reduction; and the same two divisions by the word 64.0, the same
  ε word and the same reciprocal square root appear on both sides. No law that fails at an infinity (no distributivity,
  no cancelling) is used anywhere, so the precondition that the inputs are finite is never opened: the two results are
  equal for all extended-real inputs and all index values whatever.

  THE PROOF. Each region's output array is its row map applied to every row of the arrays the region finds
  (Region⟨k⟩Blocks: a block's rows as rows of the matrix, the cover by the twenty blocks; Region⟨k⟩Value: the body's value
  at an entry, KernelRows, against NodeRows' row maps). Each host stretch hands the next region the reference's own
  stages of what the previous boundary holds (Stretches, Carry). So, boundary by boundary, the feature matrix is the
  reference's stage (Feat0 … Feat3: the reference's stages read at an entry, RefProj and RefLayer1 … RefLayer3, are the
  same row maps), and the last region's output is the reference's last stage. The kernel's run names that buffer
  (NetRun, over the generated segments of the frame); the reference's run ends at the same stage of its own, agreeing,
  arguments (RefRun). The three frames are the generated ones, the reference's its run with the result dropped; the
  idealized kernel is the printed kernel read at the extended reals, no operation rewritten, so that conjunct is trivial.
-/
import proofs.«134528_j43946105373340_1_alg».proof.Defs
import proofs.«134528_j43946105373340_1_alg».proof.Proof.Gen.Kernel
import proofs.«134528_j43946105373340_1_alg».proof.Proof.Gen.Kernel.Skeleton
import proofs.«134528_j43946105373340_1_alg».proof.Proof.Gen.Kernel.Launch
import proofs.«134528_j43946105373340_1_alg».proof.Proof.Gen.Kernel.Points
import proofs.«134528_j43946105373340_1_alg».proof.Proof.Gen.Kernel.Frame
import proofs.«134528_j43946105373340_1_alg».proof.Proof.Gen.KernelIdeal
import proofs.«134528_j43946105373340_1_alg».proof.Proof.Gen.KernelIdeal.Skeleton
import proofs.«134528_j43946105373340_1_alg».proof.Proof.Gen.KernelIdeal.Launch
import proofs.«134528_j43946105373340_1_alg».proof.Proof.Gen.KernelIdeal.Points
import proofs.«134528_j43946105373340_1_alg».proof.Proof.Gen.KernelIdeal.Frame
import proofs.«134528_j43946105373340_1_alg».proof.Proof.Gen.ReferenceIdeal
import proofs.«134528_j43946105373340_1_alg».proof.Proof.Gen.Pre_finite_inputs
import proofs.«134528_j43946105373340_1_alg».proof.Proof.NetRun
import proofs.«134528_j43946105373340_1_alg».proof.Proof.RefRun
import proofs.«134528_j43946105373340_1_alg».proof.Proof.Feat3
import Idealize.ShloMosaic.Adequacy
import Idealize.ShloMosaic.Init

set_option maxRecDepth 16384

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.NetRun.run (F := Ideal) m ρ)

/-- Both programs end with the reference's last stage of the kernel's arguments in their result buffer: the kernel by
    the walk through its four regions, the reference by its run from arguments that agree. -/
theorem algebraic : Cert.algebraic_KernelIdeal_ReferenceIdeal := by
  intro m ρ m' ρ' _ hagree
  refine ⟨fun c => Cert.ReferenceIdeal.ReadP.val_main_v185 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Net.feat3 m ρ c), (h c).2⟩)
      (Cert.KernelIdeal.NetRun.run_named (F := Ideal) m ρ)
  · refine (θ_run Cert.ReferenceIdeal.defs _ _).mono (fun _ h c => ⟨(h c).1.trans ?_, (h c).2⟩)
      (Cert.ReferenceIdeal.NetRun.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
